-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v14)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x1x512 : Shape := ⟨3, ![50000, 1, 512]⟩
abbrev S50000x3x512 : Shape := ⟨3, ![50000, 3, 512]⟩
abbrev S1024x512 : Shape := ⟨2, ![1024, 512]⟩
abbrev S512x1024 : Shape := ⟨2, ![512, 1024]⟩
abbrev S512 : Shape := ⟨1, ![512]⟩
abbrev S1536x512 : Shape := ⟨2, ![1536, 512]⟩
abbrev S1536 : Shape := ⟨1, ![1536]⟩
abbrev S_ : Shape := ⟨0, ![]⟩

class Facts : Prop where
  bcast_S_S50000x1x512 : S_.BroadcastsInDim S50000x1x512 (![] : Fin 0 → Fin S50000x1x512.rank)
  reducesTo_S50000x1x512_S_d0_1_2 : S50000x1x512.ReducesTo [0, 1, 2] S_
  h_S_ : 0 < S_.numel
  bcast_S_S50000x3x512 : S_.BroadcastsInDim S50000x3x512 (![] : Fin 0 → Fin S50000x3x512.rank)
  reducesTo_S50000x3x512_S_d0_1_2 : S50000x3x512.ReducesTo [0, 1, 2] S_
  bcast_S_S1024x512 : S_.BroadcastsInDim S1024x512 (![] : Fin 0 → Fin S1024x512.rank)
  reducesTo_S1024x512_S_d0_1 : S1024x512.ReducesTo [0, 1] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part1 {F : FTy → Type} [FloatOps F] (main_arg4 : FVec F S512 .f32) (main_arg5 : FVec F S1536x512 .f32) (main_arg6 : FVec F S1536 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1536x512 .f32 := Host.absf main_arg5
  let main_cst_8 : FVec F S_ .f32 := constant S_ .f32 0x7F800000#32
  let main_v25 : FVec F S1536x512 .f32 := broadcastInDim S1536x512 ![] bcast_S_S1536x512 main_cst_8
  let main_v26 : IVec S1536x512 1 := cmpf .olt main_v24 main_v25
  let main_c_9 : IVec S_ 1 := constantI S_ 1 1#1
  let main_v27 : IVec S_ 1 := (fun x v => Host.reduce IntOp.andi x v reducesTo_S1536x512_S_d0_1 h_S_) main_v26 main_c_9
  let main_v28 : IVec S_ 1 := andi main_v23 main_v27
  let main_v29 : FVec F S1536 .f32 := Host.absf main_arg6
  let main_cst_10 : FVec F S_ .f32 := constant S_ .f32 0x7F800000#32
  let main_v30 : FVec F S1536 .f32 := broadcastInDim S1536 ![] bcast_S_S1536 main_cst_10
  let main_v31 : IVec S1536 1 := cmpf .olt main_v29 main_v30
  let main_c_11 : IVec S_ 1 := constantI S_ 1 1#1
  let main_v32 : IVec S_ 1 := (fun x v => Host.reduce IntOp.andi x v reducesTo_S1536_S_d0 h_S_) main_v31 main_c_11
  let main_v33 : IVec S_ 1 := andi main_v28 main_v32
  main_v33

def fn {F : FTy → Type} [FloatOps F] (main_arg0 : FVec F S50000x1x512 .f32) (main_arg1 : FVec F S50000x3x512 .f32) (main_arg2 : FVec F S1024x512 .f32) (main_arg3 : FVec F S512x1024 .f32) (main_arg4 : FVec F S512 .f32) (main_arg5 : FVec F S1536x512 .f32) (main_arg6 : FVec F S1536 .f32) : IVec S_ 1 :=
  let main_v0 : FVec F S50000x1x512 .f32 := Host.absf main_arg0
  let main_cst : FVec F S_ .f32 := constant S_ .f32 0x7F800000#32
  let main_v1 : FVec F S50000x1x512 .f32 := broadcastInDim S50000x1x512 ![] bcast_S_S50000x1x512 main_cst
  let main_v2 : IVec S50000x1x512 1 := cmpf .olt main_v0 main_v1
  let main_c : IVec S_ 1 := constantI S_ 1 1#1
  let main_v3 : IVec S_ 1 := (fun x v => Host.reduce IntOp.andi x v reducesTo_S50000x1x512_S_d0_1_2 h_S_) main_v2 main_c
  let main_v4 : FVec F S50000x3x512 .f32 := Host.absf main_arg1
  let main_cst_0 : FVec F S_ .f32 := constant S_ .f32 0x7F800000#32
  let main_v5 : FVec F S50000x3x512 .f32 := broadcastInDim S50000x3x512 ![] bcast_S_S50000x3x512 main_cst_0
  let main_v6 : IVec S50000x3x512 1 := cmpf .olt main_v4 main_v5
  let main_c_1 : IVec S_ 1 := constantI S_ 1 1#1
  let main_v7 : IVec S_ 1 := (fun x v => Host.reduce IntOp.andi x v reducesTo_S50000x3x512_S_d0_1_2 h_S_) main_v6 main_c_1
  let main_v8 : IVec S_ 1 := andi main_v3 main_v7
  let main_v9 : FVec F S1024x512 .f32 := Host.absf main_arg2
  let main_cst_2 : FVec F S_ .f32 := constant S_ .f32 0x7F800000#32
  let main_v10 : FVec F S1024x512 .f32 := broadcastInDim S1024x512 ![] bcast_S_S1024x512 main_cst_2
  let main_v11 : IVec S1024x512 1 := cmpf .olt main_v9 main_v10
  let main_c_3 : IVec S_ 1 := constantI S_ 1 1#1
  let main_v12 : IVec S_ 1 := (fun x v => Host.reduce IntOp.andi x v reducesTo_S1024x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Kernel.lean ====
abbrev S50000x1x512 : Shape := ⟨3, ![50000, 1, 512]⟩
abbrev S50000x3x512 : Shape := ⟨3, ![50000, 3, 512]⟩
abbrev S1024x512 : Shape := ⟨2, ![1024, 512]⟩
abbrev S512x1024 : Shape := ⟨2, ![512, 1024]⟩
abbrev S512 : Shape := ⟨1, ![512]⟩
abbrev S1536x512 : Shape := ⟨2, ![1536, 512]⟩
abbrev S1536 : Shape := ⟨1, ![1536]⟩
abbrev S50000x512 : Shape := ⟨2, ![50000, 512]⟩
abbrev S50000x1536 : Shape := ⟨2, ![50000, 1536]⟩
abbrev S512x512 : Shape := ⟨2, ![512, 512]⟩
abbrev S512x1536 : Shape := ⟨2, ![512, 1536]⟩
abbrev S1x512 : Shape := ⟨2, ![1, 512]⟩
abbrev S1x1536 : Shape := ⟨2, ![1, 1536]⟩
abbrev S400x512 : Shape := ⟨2, ![400, 512]⟩
abbrev S400x1536 : Shape := ⟨2, ![400, 1536]⟩
abbrev S1200x512 : Shape := ⟨2, ![1200, 512]⟩
abbrev S1200x1024 : Shape := ⟨2, ![1200, 1024]⟩
abbrev S400x1024 : Shape := ⟨2, ![400, 1024]⟩

abbrev nBuf : Space → Nat
  | .hbm => 24
  | .vmem => 14
  | .smem => 0
  | _ => 0

abbrev bufTy : (tb : Table) → Fin (tcTables nBuf tb) → BufTy
  | .hbm, ⟨0, _⟩ => ⟨S50000x1x512, .f32⟩
  | .hbm, ⟨1, _⟩ => ⟨S50000x3x512, .f32⟩
  | .hbm, ⟨2, _⟩ => ⟨S1024x512, .f32⟩
  | .hbm, ⟨3, _⟩ => ⟨S512x1024, .f32⟩
  | .hbm, ⟨4, _⟩ => ⟨S512, .f32⟩
  | .hbm, ⟨5, _⟩ => ⟨S1536x512, .f32⟩
  | .hbm, ⟨6, _⟩ => ⟨S1536, .f32⟩
  | .hbm, ⟨7, _⟩ => ⟨S50000x512, .f32⟩
  | .hbm, ⟨8, _⟩ => ⟨S50000x1536, .f32⟩
  | .hbm, ⟨9, _⟩ => ⟨S512x1024, .f32⟩
  | .hbm, ⟨10, _⟩ => ⟨S512x1024, .bf16⟩
  | .hbm, ⟨11, _⟩ => ⟨S1024x512, .f32⟩
  | .hbm, ⟨12, _⟩ => ⟨S512x512, .f32⟩
  | .hbm, ⟨13, _⟩ => ⟨S512x512, .bf16⟩
  | .hbm, ⟨14, _⟩ => ⟨S512x512, .f32⟩
  | .hbm, ⟨15, _⟩ => ⟨S512x512, .bf16⟩
  | .hbm, ⟨16, _⟩ => ⟨S512x1536, .f32⟩
  | .hbm, ⟨17, _⟩ => ⟨S512x1536, .bf16⟩
  | .hbm, ⟨18, _⟩ => ⟨S1x512, .f32⟩
  | .hbm, ⟨19, _⟩ => ⟨S1x1536, .f32⟩
  | .hbm, ⟨20, _⟩ => ⟨S50000x512, .f32⟩
  | .hbm, ⟨21, _⟩ => ⟨S50000x1536, .f32⟩
  | .hbm, ⟨22, _⟩ => ⟨S50000x1x512, .f32⟩
  | .hbm, ⟨23, _⟩ => ⟨S50000x3x512, .f32⟩
  | .local _ .vmem, ⟨0, _⟩ => ⟨S400x512, .f32⟩
  | .local _ .vmem, ⟨1, _⟩ => ⟨S400x512, .f32⟩
  | .local _ .vmem, ⟨2, _⟩ => ⟨S400x1536, .f32⟩
  | .local _ .vmem, ⟨3, _⟩ => ⟨S400x1536, .f32⟩
  | .local _ .vmem, ⟨4, _⟩ => ⟨S512x1024, .bf16⟩
  | .local _ .vmem, ⟨5, _⟩ => ⟨S512x512, .bf16⟩
  | .local _ .vmem, ⟨6, _⟩ => ⟨S512x512, .bf16⟩
  | .local _ .vmem, ⟨7, _⟩ => ⟨S512x1536, .bf16⟩
  | .local _ .vmem, ⟨8, _⟩ => ⟨S1x512, .f32⟩
  | .local _ .vmem, ⟨9, _⟩ => ⟨S1x1536, .f32⟩
  | .local _ .vmem, ⟨10, _⟩ => ⟨S400x512, .f32⟩
  | .local _ .vmem, ⟨11, _⟩ => ⟨S400x512, .f32⟩
  | .local _ .vmem, ⟨12, _⟩ => ⟨S400x1536, .f32⟩
  | .local _ .vmem, ⟨13, _⟩ => ⟨S400x1536, .f32⟩
  | _, _ => ⟨S50000x1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13_0 : Ref sig .tc := ⟨.hbm, 20, rfl⟩
abbrev main_v13_1 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1536 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S400x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S50000x1x512_S50000x512 : S50000x1x512.ShapeCasts S50000x512
  shapeCasts_S50000x3x512_S50000x1536 : S50000x3x512.ShapeCasts S50000x1536
  transposes_S1024x512_S512x1024_1_0 : S1024x512.Transposes [1, 0] S512x1024
  bitsLt_bf16_f32 : FTy.bits .bf16 < FTy.bits .f32
  transposes_S512x1024_S1024x512_1_0 : S512x1024.Transposes [1, 0] S1024x512
  slices_S1024x512_S512x512_0_0 : S1024x512.Slices ![0, 0] S512x512
  slices_S1024x512_S512x512_512_0 : S1024x512.Slices ![512, 0] S512x512
  transposes_S1536x512_S512x1536_1_0 : S1536x512.Transposes [1, 0] S512x1536
  shapeCasts_S512_S1x512 : S512.ShapeCasts S1x512
  shapeCasts_S1536_S1x1536 : S1536.ShapeCasts S1x1536
  inb_S400x512_S400x512_0_0 : ∀ a, (![0, 0] : Fin 2 → Nat) a + S400x512.size a ≤ S400x512.size a
  h_S400x512 : 0 < S400x512.numel
  shapeCasts_S400x512_S400x512 : S400x512.ShapeCasts S400x512
  inb_S400x1536_S400x1536_0_0 : ∀ a, (![0, 0] : Fin 2 → Nat) a + S400x1536.size a ≤ S400x1536.size a
  h_S400x1536 : 0 < S400x1536.numel
  shapeCasts_S400x1536_S400x1536 : S400x1536.ShapeCasts S400x1536
  slices_S400x1536_o0_0_S400x512 : S400x1536.Slices ![0, 0] S400x512
  slices_S400x1536_o0_512_S400x512 : S400x1536.Slices ![0, 512] S400x512
  slices_S400x1536_o0_1024_S400x512 : S400x1536.Slices ![0, 1024] S400x512
  concatenates_S400x512_S400x512_S400x512_S1200x512_d0 : Shape.Concatenates [S400x512, S400x512, S400x512] S1200x512 0
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  slices_S1200x1024_o0_0_S400x1024 : S1200x1024.Slices ![0, 0] S400x1024
  slices_S1200x1024_o400_0_S400x1024 : S1200x1024.Slices ![400, 0] S400x1024
  slices_S1200x1024_o800_0_S400x1024 : S1200x1024.Slices ![800, 0] S400x1024
  slices_S400x1024_o0_0_S400x512 : S400x1024.Slices ![0, 0] S400x512
  slices_S400x1024_o0_512_S400x512 : S400x1024.Slices ![0, 512] S400x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S512x1536_S512x1536_0_0 : ∀ a, (![0, 0] : Fin 2 → Nat) a + S512x1536.size a ≤ S512x1536.size a
  h_S512x1536 : 0 < S512x1536.numel
  shapeCasts_S512x1536_S512x1536 : S512x1536.ShapeCasts S512x1536
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S400x1536 : S1x1536.Broadcasts S400x1536
  inb_S400x1536_S400x512_0_0 : ∀ a, (![0, 0] : Fin 2 → Nat) a + S400x512.size a ≤ S400x1536.size a
  inb_S400x1536_S400x512_0_512 : ∀ a, (![0, 512] : Fin 2 → Nat) a + S400x512.size a ≤ S400x1536.size a
  inb_S400x1536_S400x512_0_1024 : ∀ a, (![0, 1024] : Fin 2 → Nat) a + S400x512.size a ≤ S400x1536.size a
  shapeCasts_S50000x512_S50000x1x512 : S50000x512.ShapeCasts S50000x1x512
  shapeCasts_S50000x1536_S50000x3x512 : S50000x1536.ShapeCasts S50000x3x512
  dot_S1200x512_S512x1024_S1200x1024_1_0_0_1_n_n_wf : DotDims.WF S1200x512 S512x1024 S1200x1024 [1] [0] [0] [1] [] []
  dot_S400x512_S512x512_S400x512_1_0_0_1_n_n_wf : DotDims.WF S400x512 S512x512 S400x512 [1] [0] [0] [1] [] []
  dot_S400x512_S512x1536_S400x1536_1_0_0_1_n_n_wf : DotDims.WF S400x512 S512x1536 S400x1536 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x512.size a ≤ S50000x512.size a
  hwx0_0 : ∀ i : grid0.Coords, EltTy.bits .f32 = 32 ∨ (Rect.block (s := S50000x512) S400x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1536.size a ≤ S50000x1536.size a
  hwx0_1 : ∀ i : grid0.Coords, EltTy.bits .f32 = 32 ∨ (Rect.block (s := S50000x1536) S400x1536.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .bf16 = 32 ∨ (Rect.block (s := S512x512) S512x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x512.size a
  hwx0_4 : ∀ i : grid0.Coords, EltTy.bits .bf16 = 32 ∨ (Rect.block (s := S512x512) S512x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x1536.size a ≤ S512x1536.size a
  hwx0_5 : ∀ i : grid0.Coords, EltTy.bits .bf16 = 32 ∨ (Rect.block (s := S512x1536) S512x1536.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x1536.size a
  hwx0_7 : ∀ i : grid0.Coords, EltTy.bits .f32 = 32 ∨ (Rect.block (s := S1x1536) S1x1536.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x512.size a ≤ S50000x512.size a
  hwx0_8 : ∀ i : grid0.Coords, EltTy.bits .f32 = 32 ∨ (Rect.block (s := S50000x512) S400x512.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S400x1536.size a ≤ S50000x1536.size a
  hwx0_9 : ∀ i : grid0.Coords, EltTy.bits .f32 = 32 ∨ (Rect.block (s := S50000x1536) S400x1536.size (cc0_transform_9 i) (hinb0_9 i)).WholeWords (EltTy.packing .f32)

variable [Facts₀]

def dot_S1200x512_S512x1024_S1200x1024_1_0_0_1_n_n : DotDims S1200x512 S512x1024 S1200x1024 where
  lhsContracting := [1]
  rhsContracting := [0]
  lhsNonContracting := [0]
  rhsNonContracting := [1]
  lhsBatch := []
  rhsBatch := []
  wf := dot_S1200x512_S512x1024_S1200x1024_1_0_0_1_n_n_wf
def dot_S400x512_S512x512_S400x512_1_0_0_1_n_n : DotDims S400x512 S512x512 S400x512 where
  lhsContracting := [1]
  rhsContracting := [0]
  lhsNonContracting := [0]
  rhsNonContracting := [1]
  lhsBatch := []
  rhsBatch := []
  wf := dot_S400x512_S512x512_S400x512_1_0_0_1_n_n_wf
def dot_S400x512_S512x1536_S400x1536_1_0_0_1_n_n : DotDims S400x512 S512x1536 S400x1536 where
  lhsContracting := [1]
  rhsContracting := [0]
  lhsNonContracting := [0]
  rhsNonContracting := [1]
  lhsBatch := []
  rhsBatch := []
  wf := dot_S400x512_S512x1536_S400x1536_1_0_0_1_n_n_wf

abbrev win0_0 : Pipeline.Window sig grid0 :=
  Pipeline.Window.ofSpec (Memref.whole main_v0) S400x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S400x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S512x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S512x1536.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v12) S1x1536.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13_0) S400x512.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_1) S400x1536.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S50000x1x512 : Shape := ⟨3, ![50000, 1, 512]⟩
abbrev S50000x3x512 : Shape := ⟨3, ![50000, 3, 512]⟩
abbrev S1024x512 : Shape := ⟨2, ![1024, 512]⟩
abbrev S512x1024 : Shape := ⟨2, ![512, 1024]⟩
abbrev S512 : Shape := ⟨1, ![512]⟩
abbrev S1536x512 : Shape := ⟨2, ![1536, 512]⟩
abbrev S1536 : Shape := ⟨1, ![1536]⟩
abbrev S50000x3x1024 : Shape := ⟨3, ![50000, 3, 1024]⟩
abbrev S_ : Shape := ⟨0, ![]⟩
abbrev S50000x512 : Shape := ⟨2, ![50000, 512]⟩
abbrev S50000x1x1024 : Shape := ⟨3, ![50000, 1, 1024]⟩
abbrev S1x1x512 : Shape := ⟨3, ![1, 1, 512]⟩
abbrev S50000x1x1536 : Shape := ⟨3, ![50000, 1, 1536]⟩
abbrev S1x1x1536 : Shape := ⟨3, ![1, 1, 1536]⟩

abbrev nBuf : Space → Nat
  | .hbm => 49
  | .vmem => 0
  | .smem => 0
  | _ => 0

abbrev bufTy : (tb : Table) → Fin (tcTables nBuf tb) → BufTy
  | .hbm, ⟨0, _⟩ => ⟨S50000x1x512, .f32⟩
  | .hbm, ⟨1, _⟩ => ⟨S50000x3x512, .f32⟩
  | .hbm, ⟨2, _⟩ => ⟨S1024x512, .f32⟩
  | .hbm, ⟨3, _⟩ => ⟨S512x1024, .f32⟩
  | .hbm, ⟨4, _⟩ => ⟨S512, .f32⟩
  | .hbm, ⟨5, _⟩ => ⟨S1536x512, .f32⟩
  | .hbm, ⟨6, _⟩ => ⟨S1536, .f32⟩
  | .hbm, ⟨7, _⟩ => ⟨S50000x3x1024, .f32⟩
  | .hbm, ⟨8, _⟩ => ⟨S50000x3x512, .f32⟩
  | .hbm, ⟨9, _⟩ => ⟨S50000x3x512, .f32⟩
  | .hbm, ⟨10, _⟩ => ⟨S50000x3x512, .f32⟩
  | .hbm, ⟨11, _⟩ => ⟨S_, .f32⟩
  | .hbm, ⟨12, _⟩ => ⟨S50000x512, .f32⟩
  | .hbm, ⟨13, _⟩ => ⟨S50000x1x512, .f32⟩
  | .hbm, ⟨14, _⟩ => ⟨S_, .f32⟩
  | .hbm, ⟨15, _⟩ => ⟨S50000x1x512, .f32⟩
  | .hbm, ⟨16, _⟩ => ⟨S50000x1x512, .f32⟩
  | .hbm, ⟨17, _⟩ => ⟨S50000x1x512, .f32⟩
  | .hbm, ⟨18, _⟩ => ⟨S50000x1x1024, .f32⟩
  | .hbm, ⟨19, _⟩ => ⟨S50000x1x512, .f32⟩
  | .hbm, ⟨20, _⟩ => ⟨S1x1x512, .f32⟩
  | .hbm, ⟨21, _⟩ => ⟨S50000x1x512, .f32⟩
  | .hbm, ⟨22, _⟩ => ⟨S50000x1x512, .f32⟩
  | .hbm, ⟨23, _⟩ => ⟨S50000x1x512, .f32⟩
  | .hbm, ⟨24, _⟩ => ⟨S50000x1x512, .f32⟩
  | .hbm, ⟨25, _⟩ => ⟨S_, .f32⟩
  | .hbm, ⟨26, _⟩ => ⟨S50000x1x512, .f32⟩
  | .hbm, ⟨27, _⟩ => ⟨S50000x1x512, .f32⟩
  | .hbm, ⟨28, _⟩ => ⟨S_, .f32⟩
  | .hbm, ⟨29, _⟩ => ⟨S50000x1x512, .f32⟩
  | .hbm, ⟨30, _⟩ => ⟨S50000x1x512, .f32⟩
  | .hbm, ⟨31, _⟩ => ⟨S50000x1x512, .f32⟩
  | .hbm, ⟨32, _⟩ => ⟨S50000x1x1536, .f32⟩
  | .hbm, ⟨33, _⟩ => ⟨S1x1x1536, .f32⟩
  | .hbm, ⟨34, _⟩ => ⟨S50000x1x1536, .f32⟩
  | .hbm, ⟨35, _⟩ => ⟨S50000x1x1536, .f32⟩
  | .hbm, ⟨36, _⟩ => ⟨S50000x1x512, .f32⟩
  | .hbm, ⟨37, _⟩ => ⟨S50000x1x512, .f32⟩
  | .hbm, ⟨38, _⟩ => ⟨S50000x3x512, .f32⟩
  | .hbm, ⟨39, _⟩ => ⟨S50000x3x512, .f32⟩
  | .hbm, ⟨40, _⟩ => ⟨S50000x1x512, .f32⟩
  | .hbm, ⟨41, _⟩ => ⟨S50000x3x512, .f32⟩
  | .hbm, ⟨42, _⟩ => ⟨S_, .f32⟩
  | .hbm, ⟨43, _⟩ => ⟨S50000x512, .f32⟩
  | .hbm, ⟨44, _⟩ => ⟨S50000x1x512, .f32⟩
  | .hbm, ⟨45, _⟩ => ⟨S50000x1x512, .f32⟩
  | .hbm, ⟨46, _⟩ => ⟨S50000x1x512, .f32⟩
  | .hbm, ⟨47, _⟩ => ⟨S50000x1x512, .f32⟩
  | .hbm, ⟨48, _⟩ => ⟨S50000x3x512, .f32⟩
  | _, _ => ⟨S50000x1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_1 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩

abbrev nD : Nat := 1
abbrev τ : Topo := Topo.v7x

variable {F : FTy → Type} [FloatOps F]

class Facts₀ : Prop where
  slices_S50000x3x1024_S50000x3x512_0_0_0 : S50000x3x1024.Slices ![0, 0, 0] S50000x3x512
  slices_S50000x3x1024_S50000x3x512_0_0_512 : S50000x3x1024.Slices ![0, 0, 512] S50000x3x512
  reducesTo_S50000x3x512_S50000x512_d1 : S50000x3x512.ReducesTo [1] S50000x512
  h_S_ : 0 < S_.numel
  bcast_S50000x512_S50000x1x512_0_2 : S50000x512.BroadcastsInDim S50000x1x512 (![0, 2] : Fin 2 → Fin S50000x1x512.rank)
  bcast_S_S50000x1x512 : S_.BroadcastsInDim S50000x1x512 (![] : Fin 0 → Fin S50000x1x512.rank)
  concatenates_S50000x1x512_S50000x1x512_S50000x1x1024_d2 : Shape.Concatenates [S50000x1x512, S50000x1x512] S50000x1x1024 2
  bcast_S512_S1x1x512_2 : S512.BroadcastsInDim S1x1x512 (![2] : Fin 1 → Fin S1x1x512.rank)
  bcast_S1x1x512_S50000x1x512_0_1_2 : S1x1x512.BroadcastsInDim S50000x1x512 (![0, 1, 2] : Fin 3 → Fin S50000x1x512.rank)
  bcast_S1536_S1x1x1536_2 : S1536.BroadcastsInDim S1x1x1536 (![2] : Fin 1 → Fin S1x1x1536.rank)
  bcast_S1x1x1536_S50000x1x1536_0_1_2 : S1x1x1536.BroadcastsInDim S50000x1x1536 (![0, 1, 2] : Fin 3 → Fin S50000x1x1536.rank)
  slices_S50000x1x1536_S50000x1x512_0_0_0 : S50000x1x1536.Slices ![0, 0, 0] S50000x1x512
  slices_S50000x1x1536_S50000x1x512_0_0_512 : S50000x1x1536.Slices ![0, 0, 512] S50000x1x512
  bcast_S50000x1x512_S50000x3x512_0_1_2 : S50000x1x512.BroadcastsInDim S50000x3x512 (![0, 1, 2] : Fin 3 → Fin S50000x3x512.rank)
  slices_S50000x1x1536_S50000x1x512_0_0_1024 : S50000x1x1536.Slices ![0, 0, 1024] S50000x1x512
  dot_S50000x3x512_S1024x512_S50000x3x1024_2_1_01_0_n_n_wf : DotDims.WF S50000x3x512 S1024x512 S50000x3x1024 [2] [1] [0, 1] [0] [] []
  dot_S50000x1x1024_S512x1024_S50000x1x512_2_1_01_0_n_n_wf : DotDims.WF S50000x1x1024 S512x1024 S50000x1x512 [2] [1] [0, 1] [0] [] []
  dot_S50000x1x512_S1536x512_S50000x1x1536_2_1_01_0_n_n_wf : DotDims.WF S50000x1x512 S1536x512 S50000x1x1536 [2] [1] [0, 1] [0] [] []

variable [Facts₀]

def dot_S50000x3x512_S1024x512_S50000x3x1024_2_1_01_0_n_n : DotDims S50000x3x512 S1024x512 S50000x3x1024 where
  lhsContracting := [2]
  rhsContracting := [1]
  lhsNonContracting := [0, 1]
  rhsNonContracting := [0]
  lhsBatch := []
  rhsBatch := []
  wf := dot_S50000x3x512_S1024x512_S50000x3x1024_2_1_01_0_n_n_wf
def dot_S50000x1x1024_S512x1024_S50000x1x512_2_1_01_0_n_n : DotDims S50000x1x1024 S512x1024 S50000x1x512 where
  lhsContracting := [2]
  rhsContracting := [1]
  lhsNonContracting := [0, 1]
  rhsNonContracting := [0]
  lhsBatch := []
  rhsBatch := []
  wf := dot_S50000x1x1024_S512x1024_S50000x1x512_2_1_01_0_n_n_wf
def dot_S50000x1x512_S1536x512_S50000x1x1536_2_1_01_0_n_n : DotDims S50000x1x512 S1536x512 S50000x1x1536 where
  lhsContracting := [2]
  rhsContracting := [1]
  lhsNonContracting := [0, 1]
  rhsNonContracting := [0]
  lhsBatch := []
  rhsBatch := []
  wf := dot_S50000x1x512_S1536x512_S50000x1x1536_2_1_01_0_n_n_wf

class Facts : Prop extends Facts₀ where

variable [Facts]
-- ==== Proof.Mixing.lean ====
/-
  The mathematics of one row of the mixing layer, over the extended reals.

  A row carries a scalar feature vector q (512 entries) and three Cartesian vector channels mu_0, mu_1, mu_2
  (512 entries each). With weights WM (1024 x 512), W1 (split into the half W1q that meets q and the half W1v that
  meets the vector norm), bias B1, W2 (1536 x 512) and bias B2:

    mix d g   = sum_f mu_d f * WM g f                       (g < 1024; the first 512 columns are V, the last 512 are W)
    vnorm j   = sqrt (V_0 j ^2 + V_1 j ^2 + V_2 j ^2 + eps)
    hpre g    = sum_f q f * W1q g f + sum_f vnorm f * W1v g f + B1 g
    hact g    = hpre g * logistic (hpre g)                   (the sigmoid-weighted linear unit)
    xout j    = sum_g hact g * W2 j g + B2 j                 (j < 1536: three thirds)
    qout j    = q j + xout j + xout (1024 + j) * (V_0 j W_0 j + V_1 j W_1 j + V_2 j W_2 j)
    muout d j = mu_d j + xout (512 + j) * W_d j

  Every sum is a finite sum of extended reals, which is defined whatever the terms are; the laws used to join two
  spellings of these formulas (a sum over 1024 split in two halves, a three-term sum started at zero, the logistic
  function written out) are laws of a commutative additive monoid or hold by definition, so no entry needs to be finite.
-/
import Idealize.ShloMosaic.PureOps.Ideal
import Idealize.ShloMosaic.PureOps.Ideal.Laws
import Idealize.ShloMosaic.Lib.IdealHost
import Idealize.ShloMosaic.Lib.ValueIdx

noncomputable section

open scoped BigOperators

namespace Cert.Mixing

open Idealize.ShloMosaic Idealize.ShloMosaic.ValueIdx

/-! ## Columns -/

/-- Column f of the first half of 1024 columns. -/
abbrev lo (f : Fin 512) : Fin 1024 := ⟨f.val, Nat.lt_of_lt_of_le f.isLt (by decide)⟩
/-- Column f of the second half of 1024 columns. -/
abbrev hi (f : Fin 512) : Fin 1024 := ⟨512 + f.val, by have := f.isLt; omega⟩
/-- Column f of third d of 1536 columns. -/
abbrev col3 (d : Fin 3) (f : Fin 512) : Fin 1536 := ⟨d.val * 512 + f.val, by have := f.isLt; have := d.isLt; omega⟩

/-- The small constant under the square root, as the extended real its f32 word denotes. -/
abbrev eps : EReal := Ideal.ofBits .f32 0x322BCC77#32

/-! ## One row -/

section Row

variable (q : Fin 512 → EReal) (mu : Fin 3 → Fin 512 → EReal)
  (WM : Fin 1024 → Fin 512 → EReal) (W1q W1v : Fin 512 → Fin 512 → EReal) (B1 : Fin 512 → EReal)
  (W2 : Fin 1536 → Fin 512 → EReal) (B2 : Fin 1536 → EReal)

/-- Channel d of the row mixed by WM: entry g of mu_d · WMᵀ. -/
def mix (d : Fin 3) (g : Fin 1024) : EReal := ∑ f : Fin 512, mu d f * WM g f

/-- The norm over the three channels of the V half, with the small constant under the root. -/
def vnorm (j : Fin 512) : EReal :=
  Ideal.sqrt (((mix mu WM 0 (lo j) * mix mu WM 0 (lo j) + mix mu WM 1 (lo j) * mix mu WM 1 (lo j))
    + mix mu WM 2 (lo j) * mix mu WM 2 (lo j)) + eps)

/-- The hidden layer before its activation. -/
def hpre (g : Fin 512) : EReal :=
  ((∑ f : Fin 512, q f * W1q g f) + (∑ f : Fin 512, vnorm mu WM f * W1v g f)) + B1 g

/-- The hidden layer: x · logistic x. -/
def hact (g : Fin 512) : EReal := hpre q mu WM W1q W1v B1 g * Ideal.logistic (hpre q mu WM W1q W1v B1 g)

/-- The output layer, 1536 wide. -/
def xout (j : Fin 1536) : EReal := (∑ g : Fin 512, hact q mu WM W1q W1v B1 g * W2 j g) + B2 j

/-- The sum over the channels of V · W. -/
def vw (j : Fin 512) : EReal :=
  (mix mu WM 0 (lo j) * mix mu WM 0 (hi j) + mix mu WM 1 (lo j) * mix mu WM 1 (hi j))
    + mix mu WM 2 (lo j) * mix mu WM 2 (hi j)

/-- The row's new scalar features. -/
def qout (j : Fin 512) : EReal :=
  (q j + xout q mu WM W1q W1v B1 W2 B2 (col3 0 j)) + xout q mu WM W1q W1v B1 W2 B2 (col3 2 j) * vw mu WM j

/-- The row's new vector channels. -/
def muout (d : Fin 3) (j : Fin 512) : EReal :=
  mu d j + xout q mu WM W1q W1v B1 W2 B2 (col3 1 j) * mix mu WM d (hi j)

end Row

/-! ## The laws that join two spellings -/

/-- A sum over 1024 columns is the sum over the first half plus the sum over the second half. -/
theorem sum_halves {M : Type*} [AddCommMonoid M] (F : Fin 1024 → M) :
    ∑ k : Fin 1024, F k = (∑ f : Fin 512, F (lo f)) + ∑ f : Fin 512, F (hi f) :=
  Fin.sum_univ_add (a := 512) (b := 512) F

/-- A three-term sum started at the zero word is the terms added left to right. -/
theorem zero_add_sum_three (F : Fin 3 → EReal) :
    Ideal.ofBits .f32 0x00000000#32 + ∑ k : Fin 3, F k = (F 0 + F 1) + F 2 := by
  rw [Ideal.ofBits_zero_f32, zero_add, Fin.sum_univ_three]

/-- The logistic function written out with the word of 1.0: 1 / (1 + exp (-x)). -/
theorem logistic_spelt (x : EReal) :
    Ideal.div (Ideal.ofBits .f32 0x3F800000#32) (Ideal.ofBits .f32 0x3F800000#32 + Ideal.exp (-x)) = Ideal.logistic x := by
  rw [Ideal.ofBits_one_f32]; rfl

/-! ## The two result arrays as functions of the seven argument arrays -/

section Arrays

variable (a0 : (⟨3, ![50000, 1, 512]⟩ : Shape).Idx → EReal) (a1 : (⟨3, ![50000, 3, 512]⟩ : Shape).Idx → EReal)
  (a2 : (⟨2, ![1024, 512]⟩ : Shape).Idx → EReal) (a3 : (⟨2, ![512, 1024]⟩ : Shape).Idx → EReal)
  (a4 : (⟨1, ![512]⟩ : Shape).Idx → EReal) (a5 : (⟨2, ![1536, 512]⟩ : Shape).Idx → EReal)
  (a6 : (⟨1, ![1536]⟩ : Shape).Idx → EReal)

/-- Row n's new scalar features from the argument arrays. -/
def rowQ (n : Fin 50000) (j : Fin 512) : EReal :=
  qout (fun f => a0 (ix3 n (0 : Fin 1) f)) (fun d f => a1 (ix3 n d f)) (fun g f => a2 (ix2 g f))
    (fun g f => a3 (ix2 g (lo f))) (fun g f => a3 (ix2 g (hi f))) (fun g => a4 (ix1 g))
    (fun j g => a5 (ix2 j g)) (fun j => a6 (ix1 j)) j

/-- Row n's new vector channels from the argument arrays. -/
def rowMu (n : Fin 50000) (d : Fin 3) (j : Fin 512) : EReal :=
  muout (fun f => a0 (ix3 n (0 : Fin 1) f)) (fun d f => a1 (ix3 n d f)) (fun g f => a2 (ix2 g f))
    (fun g f => a3 (ix2 g (lo f))) (fun g f => a3 (ix2 g (hi f))) (fun g => a4 (ix1 g))
    (fun j g => a5 (ix2 j g)) (fun j => a6 (ix1 j)) d j

/-- The first result, [50000, 1, 512]. -/
def outQ : (⟨3, ![50000, 1, 512]⟩ : Shape).Idx → EReal := fun i =>
  rowQ a0 a1 a2 a3 a4 a5 a6 ⟨(i 0).val, (i 0).isLt⟩ ⟨(i 2).val, (i 2).isLt⟩

/-- The second result, [50000, 3, 512]. -/
def outMu : (⟨3, ![50000, 3, 512]⟩ : Shape).Idx → EReal := fun i =>
  rowMu a0 a1 a2 a3 a4 a5 a6 ⟨(i 0).val, (i 0).isLt⟩ ⟨(i 1).val, (i 1).isLt⟩ ⟨(i 2).val, (i 2).isLt⟩

theorem outQ_ix3 (n : Fin 50000) (u : Fin 1) (j : Fin 512) :
    outQ a0 a1 a2 a3 a4 a5 a6 (ix3 n u j) = rowQ a0 a1 a2 a3 a4 a5 a6 n j := rfl

theorem outMu_ix3 (n : Fin 50000) (d : Fin 3) (j : Fin 512) :
    outMu a0 a1 a2 a3 a4 a5 a6 (ix3 n d j) = rowMu a0 a1 a2 a3 a4 a5 a6 n d j := rfl

end Arrays

end Cert.Mixing

end
-- ==== Proof.LibDenseRows.lean ====
/-
  A dense layer over the extended reals, read at an index.

  For a row-major matrix product x · W with x : [M, K] and W : [K, N] (the plain dimension numbers: the
  left operand contracted on its last axis, the right on its first), accumulated into a zero matrix, the
  entry (p, j) is the finite sum over e of x(p, e) · W(e, j). Adding a bias given as a one-row matrix
  b : [1, N] broadcast down the M rows adds b(0, j). A rectifier written as the maximum with a zero splat,
  followed by a change of float format (the identity on the extended reals), is max(v, 0) entry by entry.
  Nothing here needs the entries to be finite: the extended reals' sum of finitely many terms is defined
  whatever the terms are.
-/
import Idealize.ShloMosaic.PureOps.Ideal.Laws
import Idealize.ShloMosaic.Lib.ValueIdx
import Idealize.ShloMosaic.Lib.ValueLayout

noncomputable section

namespace Cert.LibDenseRows

open Idealize.ShloMosaic Idealize.ShloMosaic.ValueIdx

variable {M K N : ℕ} {φ₁ φ₂ : FTy}

/-- The product x · W into the zero matrix, at (p, j): the sum over the shared axis of x(p, e) · W(e, j). -/
theorem matmul_plain_zero_apply (D : DotDims ⟨2, ![M, K]⟩ ⟨2, ![K, N]⟩ ⟨2, ![M, N]⟩) (hD : D = DotDims.plain M K N)
    (prec : Option ContractPrecision) (x : FVec Ideal ⟨2, ![M, K]⟩ φ₁) (W : FVec Ideal ⟨2, ![K, N]⟩ φ₂)
    (p : Fin M) (j : Fin N) :
    FloatOps.matmul D prec x W (constant (F := Ideal) ⟨2, ![M, N]⟩ .f32 0x00000000#32) (ix2 p j)
      = ∑ e : Fin K, x (ix2 p e) * W (ix2 e j) := by
  subst hD
  rw [Ideal.matmul_constant_zero_apply, ← Equiv.sum_comp (contrEquiv1 (DotDims.plain M K N) K rfl rfl).symm]
  refine Finset.sum_congr rfl fun e _ => ?_
  have he := contrEquiv1_symm_val (DotDims.plain M K N) K rfl rfl e
  have el : (DotDims.plain M K N).lhsIdx (ix2 p j) ((contrEquiv1 (DotDims.plain M K N) K rfl rfl).symm e) = ix2 p e :=
    funext fun a => Fin.ext (by
      match a with
      | ⟨0, _⟩ => rfl
      | ⟨1, _⟩ => exact ((DotDims.plain M K N).lhsIdx_val_of_single rfl _ _).trans he)
  have er : (DotDims.plain M K N).rhsIdx (ix2 p j) ((contrEquiv1 (DotDims.plain M K N) K rfl rfl).symm e) = ix2 e j :=
    funext fun a => Fin.ext (by
      match a with
      | ⟨0, _⟩ => exact ((DotDims.plain M K N).rhsIdx_val_of_single rfl _ _).trans he
      | ⟨1, _⟩ => rfl)
  rw [el, er]

/-- x · W + b with the bias a one-row matrix broadcast down the rows, at (p, j). -/
theorem dense_apply (D : DotDims ⟨2, ![M, K]⟩ ⟨2, ![K, N]⟩ ⟨2, ![M, N]⟩) (hD : D = DotDims.plain M K N)
    (prec : Option ContractPrecision) (x : FVec Ideal ⟨2, ![M, K]⟩ φ₁) (W : FVec Ideal ⟨2, ![K, N]⟩ φ₂)
    (b : FVec Ideal ⟨2, ![1, N]⟩ .f32) (hb : (⟨2, ![1, N]⟩ : Shape).Broadcasts ⟨2, ![M, N]⟩) (p : Fin M) (j : Fin N) :
    addf (FloatOps.matmul D prec x W (constant (F := Ideal) ⟨2, ![M, N]⟩ .f32 0x00000000#32))
        (broadcastTo ⟨2, ![M, N]⟩ b hb) (ix2 p j)
      = (∑ e : Fin K, x (ix2 p e) * W (ix2 e j)) + b (ix2 (0 : Fin 1) j) := by
  rw [addf_apply, matmul_plain_zero_apply D hD, broadcastTo_1b_ab_apply]

/-- The rectifier max(v, 0) followed by a narrowing of the float format, entry by entry. -/
theorem relu_narrow_apply {s : Shape} {ψ : FTy} (v : FVec Ideal s .f32) (h : ψ.bits < (FTy.f32).bits) (i : s.Idx) :
    (truncf ψ (maximumf v (broadcast s (Scalar.ofBits (F := Ideal) .f32 0x00000000#32))) h : FVec Ideal s ψ) i
      = max (v i) (Ideal.ofBits .f32 0x00000000#32) := rfl

end Cert.LibDenseRows

end
-- ==== Proof.BlockValue.lean ====
/-
  What the kernel body leaves in its two output blocks, entry by entry, as the row formulas of the mixing layer.

  The body works on a block of 400 rows. It stacks the three 512-wide thirds of the vector block (one third per
  Cartesian channel) into a 1200-row matrix, multiplies it once by the transposed mixing weight, and cuts the
  1200 x 1024 product back into channels (row band d) and halves (columns below 512: V, from 512: W). Entry
  (d·400 + r, g) of the product is the sum over e of mu_d(r, e) · WMᵀ(e, g): channel d of row r, mixed.
-/
import proofs.«148357_j34394098106847_2_alg».proof.Proof.Gen.KernelIdeal.Frame
import proofs.«148357_j34394098106847_2_alg».proof.Proof.Mixing
import proofs.«148357_j34394098106847_2_alg».proof.Proof.LibDenseRows
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.BlockValue

open Cert.KernelIdeal Cert.KernelIdeal.Gen Idealize.ShloMosaic Idealize.ShloMosaic.ValueIdx Cert.Mixing

/-- Row r of band d of the stacked 1200-row matrix. -/
abbrev band (d : Fin 3) (r : Fin 400) : Fin 1200 := ⟨d.val * 400 + r.val, by have := r.isLt; have := d.isLt; omega⟩

section Mix

variable (x1 : Vec Ideal S400x1536 .f32) (x2 : Vec Ideal S512x1024 .bf16)

/-- The three thirds of the vector block: third d at (r, e) is the block at column d·512 + e. -/
theorem third0_apply (r : Fin 400) (e : Fin 512) : k0_pay9 x1 (ix2 r e) = x1 (ix2 r (col3 0 e)) := by
  unfold k0_pay9 k0_pay8
  rw [slice2_axis1_eq 0 _ slices_S400x1536_o0_0_S400x512 r e, shapeCast_self]
  exact congrArg x1 (congrArg (ix2 r) (Fin.ext (by show 0 + e.val = 0 * 512 + e.val; omega)))
theorem third1_apply (r : Fin 400) (e : Fin 512) : k0_pay10 x1 (ix2 r e) = x1 (ix2 r (col3 1 e)) := by
  unfold k0_pay10 k0_pay8
  rw [slice2_axis1_eq 512 _ slices_S400x1536_o0_512_S400x512 r e, shapeCast_self]
  exact congrArg x1 (congrArg (ix2 r) (Fin.ext (by show 512 + e.val = 1 * 512 + e.val; omega)))
theorem third2_apply (r : Fin 400) (e : Fin 512) : k0_pay11 x1 (ix2 r e) = x1 (ix2 r (col3 2 e)) := by
  unfold k0_pay11 k0_pay8
  rw [slice2_axis1_eq 1024 _ slices_S400x1536_o0_1024_S400x512 r e, shapeCast_self]
  exact congrArg x1 (congrArg (ix2 r) (Fin.ext (by show 1024 + e.val = 2 * 512 + e.val; omega)))

/-- The stacked matrix: row r of band d is row r of third d. -/
theorem stacked_apply (d : Fin 3) (r : Fin 400) (e : Fin 512) :
    concatenate S1200x512 0 [⟨S400x512, k0_pay9 x1⟩, ⟨S400x512, k0_pay10 x1⟩, ⟨S400x512, k0_pay11 x1⟩]
        concatenates_S400x512_S400x512_S400x512_S1200x512_d0 (ix2 (band d r) e)
      = x1 (ix2 r (col3 d e)) := by
  match d with
  | ⟨0, _⟩ =>
    refine (concatenate_apply_piece (t := S1200x512) (0 : Fin 2) [⟨S400x512, k0_pay9 x1⟩, ⟨S400x512, k0_pay10 x1⟩, ⟨S400x512, k0_pay11 x1⟩] concatenates_S400x512_S400x512_S400x512_S1200x512_d0 (ix2 (band 0 r) e)
      0 (by simp) S400x512 (k0_pay9 x1) rfl rfl 0 (by first | rfl | simp) (ix2 r e) ?_ ?_).trans (third0_apply x1 r e)
    · intro b hb; match b with
      | ⟨0, _⟩ => exact absurd rfl hb
      | ⟨1, _⟩ => rfl
    · show 0 + r.val = 0 * 400 + r.val; omega
  | ⟨1, _⟩ =>
    refine (concatenate_apply_piece (t := S1200x512) (0 : Fin 2) [⟨S400x512, k0_pay9 x1⟩, ⟨S400x512, k0_pay10 x1⟩, ⟨S400x512, k0_pay11 x1⟩] concatenates_S400x512_S400x512_S400x512_S1200x512_d0 (ix2 (band 1 r) e)
      1 (by simp) S400x512 (k0_pay10 x1) rfl rfl 400 (by first | rfl | simp) (ix2 r e) ?_ ?_).trans (third1_apply x1 r e)
    · intro b hb; match b with
      | ⟨0, _⟩ => exact absurd rfl hb
      | ⟨1, _⟩ => rfl
    · show 400 + r.val = 1 * 400 + r.val; omega
  | ⟨2, _⟩ =>
    refine (concatenate_apply_piece (t := S1200x512) (0 : Fin 2) [⟨S400x512, k0_pay9 x1⟩, ⟨S400x512, k0_pay10 x1⟩, ⟨S400x512, k0_pay11 x1⟩] concatenates_S400x512_S400x512_S400x512_S1200x512_d0 (ix2 (band 2 r) e)
      2 (by simp) S400x512 (k0_pay11 x1) rfl rfl 800 (by first | rfl | simp) (ix2 r e) ?_ ?_).trans (third2_apply x1 r e)
    · intro b hb; match b with
      | ⟨0, _⟩ => exact absurd rfl hb
      | ⟨1, _⟩ => rfl
    · show 800 + r.val = 2 * 400 + r.val; omega

/-- The 1200 x 1024 product at (d·400 + r, g): channel d of row r mixed, column g. -/
theorem product_apply (d : Fin 3) (r : Fin 400) (g : Fin 1024) :
    k0_pay12 x1 x2 (ix2 (band d r) g) = mix (fun d e => x1 (ix2 r (col3 d e))) (fun g e => x2 (ix2 e g)) d g := by
  unfold k0_pay12 mix
  refine (Cert.LibDenseRows.matmul_plain_zero_apply _ rfl none _ _ (band d r) g).trans ?_
  refine Finset.sum_congr rfl fun e _ => ?_
  rw [truncf_apply, stacked_apply, shapeCast_self]

/-- The same at a row and a column given by their values. -/
theorem product_at (p : Fin 1200) (g' : Fin 1024) (d : Fin 3) (r : Fin 400) (g : Fin 1024)
    (hp : p.val = d.val * 400 + r.val) (hg : g'.val = g.val) :
    k0_pay12 x1 x2 (ix2 p g') = mix (fun d e => x1 (ix2 r (col3 d e))) (fun g e => x2 (ix2 e g)) d g := by
  have e1 : p = band d r := Fin.ext hp
  have e2 : g' = g := Fin.ext hg
  rw [e1, e2]
  exact product_apply x1 x2 d r g

/-! The six cuts of the product: band d, columns below 512 (V_d) and from 512 (W_d). -/

theorem v0_apply (r : Fin 400) (j : Fin 512) :
    k0_pay16 x1 x2 (ix2 r j) = mix (fun d e => x1 (ix2 r (col3 d e))) (fun g e => x2 (ix2 e g)) 0 (lo j) := by
  unfold k0_pay16 k0_pay13
  rw [slice2_axis1_eq 0 _ slices_S400x1024_o0_0_S400x512 r j, slice2_axis0_eq 0 _ slices_S1200x1024_o0_0_S400x1024 r _]
  exact product_at x1 x2 _ _ 0 r (lo j) (by show 0 + r.val = 0 * 400 + r.val; omega) (by show 0 + j.val = j.val; omega)
theorem w0_apply (r : Fin 400) (j : Fin 512) :
    k0_pay17 x1 x2 (ix2 r j) = mix (fun d e => x1 (ix2 r (col3 d e))) (fun g e => x2 (ix2 e g)) 0 (hi j) := by
  unfold k0_pay17 k0_pay13
  rw [slice2_axis1_eq 512 _ slices_S400x1024_o0_512_S400x512 r j, slice2_axis0_eq 0 _ slices_S1200x1024_o0_0_S400x1024 r _]
  exact product_at x1 x2 _ _ 0 r (hi j) (by show 0 + r.val = 0 * 400 + r.val; omega) rfl
theorem v1_apply (r : Fin 400) (j : Fin 512) :
    k0_pay18 x1 x2 (ix2 r j) = mix (fun d e => x1 (ix2 r (col3 d e))) (fun g e => x2 (ix2 e g)) 1 (lo j) := by
  unfold k0_pay18 k0_pay14
  rw [slice2_axis1_eq 0 _ slices_S400x1024_o0_0_S400x512 r j, slice2_axis0_eq 400 _ slices_S1200x1024_o400_0_S400x1024 r _]
  exact product_at x1 x2 _ _ 1 r (lo j) (by show 400 + r.val = 1 * 400 + r.val; omega) (by show 0 + j.val = j.val; omega)
theorem w1_apply (r : Fin 400) (j : Fin 512) :
    k0_pay19 x1 x2 (ix2 r j) = mix (fun d e => x1 (ix2 r (col3 d e))) (fun g e => x2 (ix2 e g)) 1 (hi j) := by
  unfold k0_pay19 k0_pay14
  rw [slice2_axis1_eq 512 _ slices_S400x1024_o0_512_S400x512 r j, slice2_axis0_eq 400 _ slices_S1200x1024_o400_0_S400x1024 r _]
  exact product_at x1 x2 _ _ 1 r (hi j) (by show 400 + r.val = 1 * 400 + r.val; omega) rfl
theorem v2_apply (r : Fin 400) (j : Fin 512) :
    k0_pay20 x1 x2 (ix2 r j) = mix (fun d e => x1 (ix2 r (col3 d e))) (fun g e => x2 (ix2 e g)) 2 (lo j) := by
  unfold k0_pay20 k0_pay15
  rw [slice2_axis1_eq 0 _ slices_S400x1024_o0_0_S400x512 r j, slice2_axis0_eq 800 _ slices_S1200x1024_o800_0_S400x1024 r _]
  exact product_at x1 x2 _ _ 2 r (lo j) (by show 800 + r.val = 2 * 400 + r.val; omega) (by show 0 + j.val = j.val; omega)
theorem w2_apply (r : Fin 400) (j : Fin 512) :
    k0_pay21 x1 x2 (ix2 r j) = mix (fun d e => x1 (ix2 r (col3 d e))) (fun g e => x2 (ix2 e g)) 2 (hi j) := by
  unfold k0_pay21 k0_pay15
  rw [slice2_axis1_eq 512 _ slices_S400x1024_o0_512_S400x512 r j, slice2_axis0_eq 800 _ slices_S1200x1024_o800_0_S400x1024 r _]
  exact product_at x1 x2 _ _ 2 r (hi j) (by show 800 + r.val = 2 * 400 + r.val; omega) rfl

end Mix

section Layers

variable (x0 : Vec Ideal S400x512 .f32) (x1 : Vec Ideal S400x1536 .f32) (x2 : Vec Ideal S512x1024 .bf16)
  (x3 x4 : Vec Ideal S512x512 .bf16) (x5 : Vec Ideal S512x1536 .bf16) (x6 : Vec Ideal S1x512 .f32) (x7 : Vec Ideal S1x1536 .f32)

/-- The hidden layer before its activation, at (r, g): the scalar features times the first weight half, plus the
    vector norm times the second, plus the bias row. -/
theorem hidden_apply (r : Fin 400) (g : Fin 512) :
    k0_pay22 x0 x1 x2 x3 x4 x6 (ix2 r g)
      = hpre (fun f => x0 (ix2 r f)) (fun d e => x1 (ix2 r (col3 d e))) (fun g e => x2 (ix2 e g))
          (fun g f => x3 (ix2 f g)) (fun g f => x4 (ix2 f g)) (fun g => x6 (ix2 (0 : Fin 1) g)) g := by
  unfold k0_pay22 hpre
  refine congrArg₂ (· + ·) (congrArg₂ (· + ·) ?_ ?_) ?_
  · refine (Cert.LibDenseRows.matmul_plain_zero_apply _ rfl none _ _ r g).trans (Finset.sum_congr rfl fun f _ => ?_)
    rw [truncf_apply, shapeCast_self]; unfold k0_pay7; rw [shapeCast_self]
  · refine (Cert.LibDenseRows.matmul_plain_zero_apply _ rfl none _ _ r g).trans (Finset.sum_congr rfl fun f _ => ?_)
    rw [truncf_apply, shapeCast_self]
    refine congrArg (· * x4 (ix2 f g)) ?_
    show Ideal.sqrt (((k0_pay16 x1 x2 (ix2 r f) * k0_pay16 x1 x2 (ix2 r f) + k0_pay18 x1 x2 (ix2 r f) * k0_pay18 x1 x2 (ix2 r f))
      + k0_pay20 x1 x2 (ix2 r f) * k0_pay20 x1 x2 (ix2 r f)) + eps) = _
    rw [v0_apply, v1_apply, v2_apply]; rfl
  · rw [broadcastTo_1b_ab_apply, shapeCast_self]

/-- The output layer at (r, j), j below 1536. -/
theorem output_apply (r : Fin 400) (j : Fin 1536) :
    k0_pay1 (k0_pay22 x0 x1 x2 x3 x4 x6) (k0_pay23 x0 x1 x2 x3 x4 x6) x5 x7 (ix2 r j)
      = xout (fun f => x0 (ix2 r f)) (fun d e => x1 (ix2 r (col3 d e))) (fun g e => x2 (ix2 e g))
          (fun g f => x3 (ix2 f g)) (fun g f => x4 (ix2 f g)) (fun g => x6 (ix2 (0 : Fin 1) g))
          (fun j g => x5 (ix2 g j)) (fun j => x7 (ix2 (0 : Fin 1) j)) j := by
  unfold k0_pay1 xout
  refine (Cert.LibDenseRows.dense_apply _ rfl none _ _ _ _ r j).trans ?_
  refine congrArg₂ (· + ·) (Finset.sum_congr rfl fun g _ => ?_) ?_
  · rw [truncf_apply, shapeCast_self]
    refine congrArg (· * x5 (ix2 g j)) ?_
    show k0_pay22 x0 x1 x2 x3 x4 x6 (ix2 r g) * Ideal.logistic (k0_pay22 x0 x1 x2 x3 x4 x6 (ix2 r g)) = _
    rw [hidden_apply]; rfl
  · rw [shapeCast_self]

/-- The same at a column given by its value. -/
theorem output_at (r : Fin 400) (j' j : Fin 1536) (hj : j'.val = j.val) :
    k0_pay1 (k0_pay22 x0 x1 x2 x3 x4 x6) (k0_pay23 x0 x1 x2 x3 x4 x6) x5 x7 (ix2 r j')
      = xout (fun f => x0 (ix2 r f)) (fun d e => x1 (ix2 r (col3 d e))) (fun g e => x2 (ix2 e g))
          (fun g f => x3 (ix2 f g)) (fun g f => x4 (ix2 f g)) (fun g => x6 (ix2 (0 : Fin 1) g))
          (fun j g => x5 (ix2 g j)) (fun j => x7 (ix2 (0 : Fin 1) j)) j := by
  have e : j' = j := Fin.ext hj
  rw [e]
  exact output_apply x0 x1 x2 x3 x4 x5 x6 x7 r j

theorem hz : (![0, 0] : Fin 2 → Nat) = fun _ => 0 := funext fun a => by fin_cases a <;> rfl

/-- The scalar output block at (r, j): the row's new scalar features. -/
theorem block8_apply (r : Fin 400) (j : Fin 512) :
    out0_8 x0 x1 x2 x3 x4 x5 x6 x7 (ix2 r j)
      = qout (fun f => x0 (ix2 r f)) (fun d e => x1 (ix2 r (col3 d e))) (fun g e => x2 (ix2 e g))
          (fun g f => x3 (ix2 f g)) (fun g f => x4 (ix2 f g)) (fun g => x6 (ix2 (0 : Fin 1) g))
          (fun j g => x5 (ix2 g j)) (fun j => x7 (ix2 (0 : Fin 1) j)) j := by
  unfold out0_8
  rw [View.canon_unit_zero hz]
  simp only [View.ld_unit_zero (S := S400x512) hz, View.ld_unit_zero (S := S400x1536) hz, View.ld_unit_zero (S := S512x1024) hz,
    View.ld_unit_zero (S := S512x512) hz, View.ld_unit_zero (S := S1x512) hz, View.ld_unit_zero (S := S512x1536) hz,
    View.ld_unit_zero (S := S1x1536) hz]
  unfold k0_pay3 qout vw
  show (k0_pay7 x0 (ix2 r j) + extractStridedSlice S400x512 ![0, 0] (k0_pay1 (k0_pay22 x0 x1 x2 x3 x4 x6) (k0_pay23 x0 x1 x2 x3 x4 x6) x5 x7) slices_S400x1536_o0_0_S400x512 (ix2 r j))
      + extractStridedSlice S400x512 ![0, 1024] (k0_pay1 (k0_pay22 x0 x1 x2 x3 x4 x6) (k0_pay23 x0 x1 x2 x3 x4 x6) x5 x7) slices_S400x1536_o0_1024_S400x512 (ix2 r j)
        * ((k0_pay16 x1 x2 (ix2 r j) * k0_pay17 x1 x2 (ix2 r j) + k0_pay18 x1 x2 (ix2 r j) * k0_pay19 x1 x2 (ix2 r j))
          + k0_pay20 x1 x2 (ix2 r j) * k0_pay21 x1 x2 (ix2 r j)) = _
  rw [slice2_axis1_eq 0 _ slices_S400x1536_o0_0_S400x512 r j, slice2_axis1_eq 1024 _ slices_S400x1536_o0_1024_S400x512 r j,
    output_at x0 x1 x2 x3 x4 x5 x6 x7 r _ (col3 0 j) (by show 0 + j.val = 0 * 512 + j.val; omega),
    output_at x0 x1 x2 x3 x4 x5 x6 x7 r _ (col3 2 j) (by show 1024 + j.val = 2 * 512 + j.val; omega),
    v0_apply, w0_apply, v1_apply, w1_apply, v2_apply, w2_apply]
  unfold k0_pay7; rw [shapeCast_self]

/-! The vector output block is stored third by third: channel d's new values go to columns d·512 + j. -/

theorem channel0_apply (r : Fin 400) (j : Fin 512) :
    k0_pay4 (k0_pay9 x1) (k0_pay17 x1 x2) (k0_pay22 x0 x1 x2 x3 x4 x6) (k0_pay23 x0 x1 x2 x3 x4 x6) x5 x7 (ix2 r j)
      = muout (fun f => x0 (ix2 r f)) (fun d e => x1 (ix2 r (col3 d e))) (fun g e => x2 (ix2 e g))
          (fun g f => x3 (ix2 f g)) (fun g f => x4 (ix2 f g)) (fun g => x6 (ix2 (0 : Fin 1) g))
          (fun j g => x5 (ix2 g j)) (fun j => x7 (ix2 (0 : Fin 1) j)) 0 j := by
  unfold k0_pay4 k0_pay2 muout
  show k0_pay9 x1 (ix2 r j) + extractStridedSlice S400x512 ![0, 512] (k0_pay1 (k0_pay22 x0 x1 x2 x3 x4 x6) (k0_pay23 x0 x1 x2 x3 x4 x6) x5 x7) slices_S400x1536_o0_512_S400x512 (ix2 r j)
      * k0_pay17 x1 x2 (ix2 r j) = _
  rw [slice2_axis1_eq 512 _ slices_S400x1536_o0_512_S400x512 r j,
    output_at x0 x1 x2 x3 x4 x5 x6 x7 r _ (col3 1 j) (by show 512 + j.val = 1 * 512 + j.val; omega), third0_apply, w0_apply]
theorem channel1_apply (r : Fin 400) (j : Fin 512) :
    k0_pay5 (k0_pay10 x1) (k0_pay19 x1 x2) (k0_pay22 x0 x1 x2 x3 x4 x6) (k0_pay23 x0 x1 x2 x3 x4 x6) x5 x7 (ix2 r j)
      = muout (fun f => x0 (ix2 r f)) (fun d e => x1 (ix2 r (col3 d e))) (fun g e => x2 (ix2 e g))
          (fun g f => x3 (ix2 f g)) (fun g f => x4 (ix2 f g)) (fun g => x6 (ix2 (0 : Fin 1) g))
          (fun j g => x5 (ix2 g j)) (fun j => x7 (ix2 (0 : Fin 1) j)) 1 j := by
  unfold k0_pay5 k0_pay2 muout
  show k0_pay10 x1 (ix2 r j) + extractStridedSlice S400x512 ![0, 512] (k0_pay1 (k0_pay22 x0 x1 x2 x3 x4 x6) (k0_pay23 x0 x1 x2 x3 x4 x6) x5 x7) slices_S400x1536_o0_512_S400x512 (ix2 r j)
      * k0_pay19 x1 x2 (ix2 r j) = _
  rw [slice2_axis1_eq 512 _ slices_S400x1536_o0_512_S400x512 r j,
    output_at x0 x1 x2 x3 x4 x5 x6 x7 r _ (col3 1 j) (by show 512 + j.val = 1 * 512 + j.val; omega), third1_apply, w1_apply]
theorem channel2_apply (r : Fin 400) (j : Fin 512) :
    k0_pay6 (k0_pay11 x1) (k0_pay21 x1 x2) (k0_pay22 x0 x1 x2 x3 x4 x6) (k0_pay23 x0 x1 x2 x3 x4 x6) x5 x7 (ix2 r j)
      = muout (fun f => x0 (ix2 r f)) (fun d e => x1 (ix2 r (col3 d e))) (fun g e => x2 (ix2 e g))
          (fun g f => x3 (ix2 f g)) (fun g f => x4 (ix2 f g)) (fun g => x6 (ix2 (0 : Fin 1) g))
          (fun j g => x5 (ix2 g j)) (fun j => x7 (ix2 (0 : Fin 1) j)) 2 j := by
  unfold k0_pay6 k0_pay2 muout
  show k0_pay11 x1 (ix2 r j) + extractStridedSlice S400x512 ![0, 512] (k0_pay1 (k0_pay22 x0 x1 x2 x3 x4 x6) (k0_pay23 x0 x1 x2 x3 x4 x6) x5 x7) slices_S400x1536_o0_512_S400x512 (ix2 r j)
      * k0_pay21 x1 x2 (ix2 r j) = _
  rw [slice2_axis1_eq 512 _ slices_S400x1536_o0_512_S400x512 r j,
    output_at x0 x1 x2 x3 x4 x5 x6 x7 r _ (col3 1 j) (by show 512 + j.val = 1 * 512 + j.val; omega), third2_apply, w2_apply]

/-- Column d·512 + j of row r of the block, as the image of (r, j) under the third's rectangle. -/
theorem emb7 (r : Fin 400) (j : Fin 512) : (ix2 r (col3 0 j) : S400x1536.Idx) = r0_7.emb (ix2 r j) :=
  funext fun a => Fin.ext (by
    match a with
    | ⟨0, _⟩ => show r.val = 0 + 1 * r.val; omega
    | ⟨1, _⟩ => show 0 * 512 + j.val = 0 + 1 * j.val; omega)
theorem emb8 (r : Fin 400) (j : Fin 512) : (ix2 r (col3 1 j) : S400x1536.Idx) = r0_8.emb (ix2 r j) :=
  funext fun a => Fin.ext (by
    match a with
    | ⟨0, _⟩ => show r.val = 0 + 1 * r.val; omega
    | ⟨1, _⟩ => show 1 * 512 + j.val = 512 + 1 * j.val; omega)
theorem emb9 (r : Fin 400) (j : Fin 512) : (ix2 r (col3 2 j) : S400x1536.Idx) = r0_9.emb (ix2 r j) :=
  funext fun a => Fin.ext (by
    match a with
    | ⟨0, _⟩ => show r.val = 0 + 1 * r.val; omega
    | ⟨1, _⟩ => show 2 * 512 + j.val = 1024 + 1 * j.val; omega)

/-- An entry whose column is below a third's first column is not in that third's rectangle. -/
theorem not_mem_third (i : S400x1536.Idx) (o : ℕ)
    (inb : ∀ a, (![0, o] : Fin 2 → ℕ) a + S400x512.size a ≤ S400x1536.size a) (h : (i 1).val < o) :
    i ∉ (Rect.unit (s := S400x1536) ![0, o] S400x512.size inb).set := fun hm => by
  have h1 := (Rect.mem_set_unit.mp hm) 1
  have h2 : o ≤ (i 1).val := h1.1
  omega

theorem col3_val (d : Fin 3) (j : Fin 512) : (col3 d j).val = d.val * 512 + j.val := rfl

/-- Three stores, one per third (the last store first in the list): what the block holds at column d·512 + j is
    the payload of the store whose third that column is in. -/
theorem stores_third2 (p2 p1 p0 : Vec Ideal S400x512 .f32) (r : Fin 400) (j : Fin 512) :
    View.canon ([⟨r0_9, p2⟩, ⟨r0_8, p1⟩, ⟨r0_7, p0⟩] : List (View.Piece (Elt Ideal) S400x1536 .f32)) (ix2 r (col3 2 j)) = p2 (ix2 r j) := by
  rw [emb9]; exact View.canon_cons_emb r0_9 p2 _ (ix2 r j)
theorem stores_third1 (p2 p1 p0 : Vec Ideal S400x512 .f32) (r : Fin 400) (j : Fin 512) :
    View.canon ([⟨r0_9, p2⟩, ⟨r0_8, p1⟩, ⟨r0_7, p0⟩] : List (View.Piece (Elt Ideal) S400x1536 .f32)) (ix2 r (col3 1 j)) = p1 (ix2 r j) := by
  have e1 : ((1 : Fin 3).val) = 1 := rfl
  have hlt : ((ix2 r (col3 1 j) : S400x1536.Idx) 1).val < 1024 := by
    show (col3 1 j).val < 1024; rw [col3_val]; have := j.isLt; omega
  refine (View.canon_cons_of_not_mem (⟨r0_9, p2⟩ : View.Piece (Elt Ideal) S400x1536 .f32) [⟨r0_8, p1⟩, ⟨r0_7, p0⟩]
    (not_mem_third (ix2 r (col3 1 j)) 1024 inb_S400x1536_S400x512_0_1024 hlt)).trans ?_
  rw [emb8]; exact View.canon_cons_emb r0_8 p1 _ (ix2 r j)
theorem stores_third0 (p2 p1 p0 : Vec Ideal S400x512 .f32) (r : Fin 400) (j : Fin 512) :
    View.canon ([⟨r0_9, p2⟩, ⟨r0_8, p1⟩, ⟨r0_7, p0⟩] : List (View.Piece (Elt Ideal) S400x1536 .f32)) (ix2 r (col3 0 j)) = p0 (ix2 r j) := by
  have e0 : ((0 : Fin 3).val) = 0 := rfl
  have hlt : ((ix2 r (col3 0 j) : S400x1536.Idx) 1).val < 512 := by
    show (col3 0 j).val < 512; rw [col3_val]; have := j.isLt; omega
  refine (View.canon_cons_of_not_mem (⟨r0_9, p2⟩ : View.Piece (Elt Ideal) S400x1536 .f32) [⟨r0_8, p1⟩, ⟨r0_7, p0⟩]
    (not_mem_third (ix2 r (col3 0 j)) 1024 inb_S400x1536_S400x512_0_1024 (by omega))).trans ?_
  refine (View.canon_cons_of_not_mem (⟨r0_8, p1⟩ : View.Piece (Elt Ideal) S400x1536 .f32) [⟨r0_7, p0⟩]
    (not_mem_third (ix2 r (col3 0 j)) 512 inb_S400x1536_S400x512_0_512 hlt)).trans ?_
  rw [emb7]; exact View.canon_cons_emb r0_7 p0 _ (ix2 r j)

theorem block9_third2 (r : Fin 400) (j : Fin 512) :
    out0_9 x0 x1 x2 x3 x4 x5 x6 x7 (ix2 r (col3 2 j)) = muout (fun f => x0 (ix2 r f)) (fun d e => x1 (ix2 r (col3 d e))) (fun g e => x2 (ix2 e g))
          (fun g f => x3 (ix2 f g)) (fun g f => x4 (ix2 f g)) (fun g => x6 (ix2 (0 : Fin 1) g))
          (fun j g => x5 (ix2 g j)) (fun j => x7 (ix2 (0 : Fin 1) j)) 2 j := by
  unfold out0_9
  simp only [View.ld_unit_zero (S := S400x512) hz, View.ld_unit_zero (S := S400x1536) hz, View.ld_unit_zero (S := S512x1024) hz,
    View.ld_unit_zero (S := S512x512) hz, View.ld_unit_zero (S := S1x512) hz, View.ld_unit_zero (S := S512x1536) hz,
    View.ld_unit_zero (S := S1x1536) hz]
  rw [stores_third2]
  exact channel2_apply x0 x1 x2 x3 x4 x5 x6 x7 r j
theorem block9_third1 (r : Fin 400) (j : Fin 512) :
    out0_9 x0 x1 x2 x3 x4 x5 x6 x7 (ix2 r (col3 1 j)) = muout (fun f => x0 (ix2 r f)) (fun d e => x1 (ix2 r (col3 d e))) (fun g e => x2 (ix2 e g))
          (fun g f => x3 (ix2 f g)) (fun g f => x4 (ix2 f g)) (fun g => x6 (ix2 (0 : Fin 1) g))
          (fun j g => x5 (ix2 g j)) (fun j => x7 (ix2 (0 : Fin 1) j)) 1 j := by
  unfold out0_9
  simp only [View.ld_unit_zero (S := S400x512) hz, View.ld_unit_zero (S := S400x1536) hz, View.ld_unit_zero (S := S512x1024) hz,
    View.ld_unit_zero (S := S512x512) hz, View.ld_unit_zero (S := S1x512) hz, View.ld_unit_zero (S := S512x1536) hz,
    View.ld_unit_zero (S := S1x1536) hz]
  rw [stores_third1]
  exact channel1_apply x0 x1 x2 x3 x4 x5 x6 x7 r j
theorem block9_third0 (r : Fin 400) (j : Fin 512) :
    out0_9 x0 x1 x2 x3 x4 x5 x6 x7 (ix2 r (col3 0 j)) = muout (fun f => x0 (ix2 r f)) (fun d e => x1 (ix2 r (col3 d e))) (fun g e => x2 (ix2 e g))
          (fun g f => x3 (ix2 f g)) (fun g f => x4 (ix2 f g)) (fun g => x6 (ix2 (0 : Fin 1) g))
          (fun j g => x5 (ix2 g j)) (fun j => x7 (ix2 (0 : Fin 1) j)) 0 j := by
  unfold out0_9
  simp only [View.ld_unit_zero (S := S400x512) hz, View.ld_unit_zero (S := S400x1536) hz, View.ld_unit_zero (S := S512x1024) hz,
    View.ld_unit_zero (S := S512x512) hz, View.ld_unit_zero (S := S1x512) hz, View.ld_unit_zero (S := S512x1536) hz,
    View.ld_unit_zero (S := S1x1536) hz]
  rw [stores_third0]
  exact channel0_apply x0 x1 x2 x3 x4 x5 x6 x7 r j

/-- The vector output block at (r, d·512 + j): channel d of the row's new vector features. -/
theorem block9_apply (d : Fin 3) (r : Fin 400) (j : Fin 512) :
    out0_9 x0 x1 x2 x3 x4 x5 x6 x7 (ix2 r (col3 d j)) = muout (fun f => x0 (ix2 r f)) (fun d e => x1 (ix2 r (col3 d e))) (fun g e => x2 (ix2 e g))
          (fun g f => x3 (ix2 f g)) (fun g f => x4 (ix2 f g)) (fun g => x6 (ix2 (0 : Fin 1) g))
          (fun j g => x5 (ix2 g j)) (fun j => x7 (ix2 (0 : Fin 1) j)) d j := by
  match d with
  | ⟨0, _⟩ => exact block9_third0 x0 x1 x2 x3 x4 x5 x6 x7 r j
  | ⟨1, _⟩ => exact block9_third1 x0 x1 x2 x3 x4 x5 x6 x7 r j
  | ⟨2, _⟩ => exact block9_third2 x0 x1 x2 x3 x4 x5 x6 x7 r j

end Layers

end Cert.KernelIdeal.BlockValue

end
-- ==== Proof.EntryValue.lean ====
/-
  What the region finds in each window's array, and each block's entries, in terms of the seven argument arrays.

  Before the region the host lays the arguments out for the kernel: q [50000, 1, 512] is read as a matrix
  [50000, 512] and mu [50000, 3, 512] as [50000, 1536] (row n keeps its three channels side by side: column d·512 + e
  is channel d, entry e); the three weight matrices are transposed (W1ᵀ cut into its upper and lower 512 rows) and
  the two biases become one-row matrices. A change of float format is the identity on the extended reals.
  Grid point t works on rows 400·t … 400·t + 399 of the two row-blocked arrays and on the whole of every weight.
-/
import proofs.«148357_j34394098106847_2_alg».proof.Proof.Gen.KernelIdeal.Frame
import proofs.«148357_j34394098106847_2_alg».proof.Proof.Mixing
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.EntryValue

open Cert.KernelIdeal Cert.KernelIdeal.Gen Idealize.ShloMosaic Idealize.ShloMosaic.ValueIdx Idealize.ShloMosaic.StableHlo
open Idealize.ShloMosaic.TcCoe Idealize.SL.Sem Cert.Mixing

/-! ## Layout steps at an index -/

section Layout
variable {α : Type}

/-- [50000, 1, 512] read as [50000, 512]: entry (n, f) is entry (n, 0, f). -/
theorem squeeze_apply (x : S50000x1x512.Idx → α) (n : Fin 50000) (f : Fin 512) :
    shapeCast S50000x512 x shapeCasts_S50000x1x512_S50000x512 (ix2 n f) = x (ix3 n (0 : Fin 1) f) :=
  shapeCast_apply x _ _ _ (by
    rw [Shape.rowMajor_val_three, Shape.rowMajor_val_two]
    show (n.val * 1 + 0) * 512 + f.val = n.val * 512 + f.val; omega)

/-- [50000, 3, 512] read as [50000, 1536]: entry (n, d·512 + e) is entry (n, d, e). -/
theorem merge_apply (x : S50000x3x512.Idx → α) (n : Fin 50000) (d : Fin 3) (e : Fin 512) :
    shapeCast S50000x1536 x shapeCasts_S50000x3x512_S50000x1536 (ix2 n (col3 d e)) = x (ix3 n d e) :=
  shapeCast_apply x _ _ _ (by
    rw [Shape.rowMajor_val_three, Shape.rowMajor_val_two]
    show (n.val * 3 + d.val) * 512 + e.val = n.val * 1536 + (d.val * 512 + e.val); omega)

end Layout

variable (m : (ℓ : Loc nD τ sig) → Buf (Elt Ideal) ℓ)

/-! ## The arrays as the region finds them -/

theorem found0 (c : Dev nD) : V m c main_v0
    = shapeCast S50000x512 (m ((c : Thread nD τ).loc main_arg0)) shapeCasts_S50000x1x512_S50000x512 := by
  show StableHlo.after hostOps0 (fun b => m (c, b)) (Proc.devRef .tc main_v0) = _
  after_results
  all_goals rfl
theorem found1 (c : Dev nD) : V m c main_v1
    = shapeCast S50000x1536 (m ((c : Thread nD τ).loc main_arg1)) shapeCasts_S50000x3x512_S50000x1536 := by
  show StableHlo.after hostOps0 (fun b => m (c, b)) (Proc.devRef .tc main_v1) = _
  after_results
  all_goals rfl
theorem found2 (c : Dev nD) : V m c main_v3
    = truncf (F := Ideal) .bf16 (transpose S512x1024 [1, 0] (m ((c : Thread nD τ).loc main_arg2)) transposes_S1024x512_S512x1024_1_0) bitsLt_bf16_f32 := by
  show StableHlo.after hostOps0 (fun b => m (c, b)) (Proc.devRef .tc main_v3) = _
  after_results
  all_goals rfl
theorem found3 (c : Dev nD) : V m c main_v6
    = truncf (F := Ideal) .bf16 (extractStridedSlice S512x512 ![0, 0] (transpose S1024x512 [1, 0] (m ((c : Thread nD τ).loc main_arg3)) transposes_S512x1024_S1024x512_1_0) slices_S1024x512_S512x512_0_0) bitsLt_bf16_f32 := by
  show StableHlo.after hostOps0 (fun b => m (c, b)) (Proc.devRef .tc main_v6) = _
  after_results
  all_goals rfl
theorem found4 (c : Dev nD) : V m c main_v8
    = truncf (F := Ideal) .bf16 (extractStridedSlice S512x512 ![512, 0] (transpose S1024x512 [1, 0] (m ((c : Thread nD τ).loc main_arg3)) transposes_S512x1024_S1024x512_1_0) slices_S1024x512_S512x512_512_0) bitsLt_bf16_f32 := by
  show StableHlo.after hostOps0 (fun b => m (c, b)) (Proc.devRef .tc main_v8) = _
  after_results
  all_goals rfl
theorem found5 (c : Dev nD) : V m c main_v10
    = truncf (F := Ideal) .bf16 (transpose S512x1536 [1, 0] (m ((c : Thread nD τ).loc main_arg5)) transposes_S1536x512_S512x1536_1_0) bitsLt_bf16_f32 := by
  show StableHlo.after hostOps0 (fun b => m (c, b)) (Proc.devRef .tc main_v10) = _
  after_results
  all_goals rfl
theorem found6 (c : Dev nD) : V m c main_v11
    = shapeCast S1x512 (m ((c : Thread nD τ).loc main_arg4)) shapeCasts_S512_S1x512 := by
  show StableHlo.after hostOps0 (fun b => m (c, b)) (Proc.devRef .tc main_v11) = _
  after_results
  all_goals rfl
theorem found7 (c : Dev nD) : V m c main_v12
    = shapeCast S1x1536 (m ((c : Thread nD τ).loc main_arg6)) shapeCasts_S1536_S1x1536 := by
  show StableHlo.after hostOps0 (fun b => m (c, b)) (Proc.devRef .tc main_v12) = _
  after_results
  all_goals rfl

/-! ## Their entries -/

section Entries
variable (c : Dev nD)

theorem entry0 (n : Fin 50000) (f : Fin 512) : V m c main_v0 (ix2 n f) = m ((c : Thread nD τ).loc main_arg0) (ix3 n (0 : Fin 1) f) := by
  rw [found0]; exact squeeze_apply _ n f
theorem entry1 (n : Fin 50000) (d : Fin 3) (e : Fin 512) : V m c main_v1 (ix2 n (col3 d e)) = m ((c : Thread nD τ).loc main_arg1) (ix3 n d e) := by
  rw [found1]; exact merge_apply _ n d e
theorem entry2 (e : Fin 512) (g : Fin 1024) : V m c main_v3 (ix2 e g) = m ((c : Thread nD τ).loc main_arg2) (ix2 g e) := by
  rw [found2, truncf_apply]; exact transpose_ix2_apply _ _ e g
theorem entry3 (f g : Fin 512) : V m c main_v6 (ix2 f g) = m ((c : Thread nD τ).loc main_arg3) (ix2 g (lo f)) := by
  rw [found3, truncf_apply, slice2_axis0_eq 0 _ slices_S1024x512_S512x512_0_0 f g, transpose_ix2_apply]
  exact congrArg (fun k => m ((c : Thread nD τ).loc main_arg3) (ix2 g k)) (Fin.ext (Nat.zero_add _))
theorem entry4 (f g : Fin 512) : V m c main_v8 (ix2 f g) = m ((c : Thread nD τ).loc main_arg3) (ix2 g (hi f)) := by
  rw [found4, truncf_apply, slice2_axis0_eq 512 _ slices_S1024x512_S512x512_512_0 f g, transpose_ix2_apply]
theorem entry5 (g : Fin 512) (j : Fin 1536) : V m c main_v10 (ix2 g j) = m ((c : Thread nD τ).loc main_arg5) (ix2 j g) := by
  rw [found5, truncf_apply]; exact transpose_ix2_apply _ _ g j
theorem entry6 (g : Fin 512) : V m c main_v11 (ix2 (0 : Fin 1) g) = m ((c : Thread nD τ).loc main_arg4) (ix1 g) := by
  rw [found6]; exact shapeCast_a_1a_apply _ _ 0 g
theorem entry7 (j : Fin 1536) : V m c main_v12 (ix2 (0 : Fin 1) j) = m ((c : Thread nD τ).loc main_arg6) (ix1 j) := by
  rw [found7]; exact shapeCast_a_1a_apply _ _ 0 j

end Entries

/-! ## Where a block sits -/

/-- The block indices of every window at grid point t: the two inputs and the two outputs blocked by rows sit at row
    block t, every weight and bias is one block. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0
    ∧ win0_9.index t (0 : Fin 2) = t.val ∧ win0_9.index t (1 : Fin 2) = 0 :=
  (by decide +kernel : ∀ t : Fin grid0.N, _)

theorem point_lt (t : Fin cfg0.N) : t.val < 125 := by
  have h : t.val < grid0.N := t.isLt
  rw [N_0] at h; exact h

/-- Row r of grid point t's block, as a row of the whole array. -/
abbrev rowAt (t : Fin cfg0.N) (r : Fin 400) : Fin 50000 :=
  ⟨t.val * 400 + r.val, by have := point_lt t; have := r.isLt; omega⟩

theorem emb0 (t : Fin cfg0.N) (r : Fin 400) (f : Fin 512) :
    ((cfg0.win 0).blk t).view.emb (ix2 r f) = (ix2 (rowAt t r) f : S50000x512.Idx) := by
  obtain ⟨e0, e1, -⟩ := idx_facts t
  funext a; apply Fin.ext
  match a with
  | ⟨0, _⟩ => show win0_0.index t (0 : Fin 2) * 400 + 1 * r.val = t.val * 400 + r.val; rw [e0]; omega
  | ⟨1, _⟩ => show win0_0.index t (1 : Fin 2) * 512 + 1 * f.val = f.val; rw [e1]; omega
theorem emb1 (t : Fin cfg0.N) (r : Fin 400) (k : Fin 1536) :
    ((cfg0.win 1).blk t).view.emb (ix2 r k) = (ix2 (rowAt t r) k : S50000x1536.Idx) := by
  obtain ⟨-, -, e0, e1, -⟩ := idx_facts t
  funext a; apply Fin.ext
  match a with
  | ⟨0, _⟩ => show win0_1.index t (0 : Fin 2) * 400 + 1 * r.val = t.val * 400 + r.val; rw [e0]; omega
  | ⟨1, _⟩ => show win0_1.index t (1 : Fin 2) * 1536 + 1 * k.val = k.val; rw [e1]; omega
theorem emb2 (t : Fin cfg0.N) (e : Fin 512) (g : Fin 1024) :
    ((cfg0.win 2).blk t).view.emb (ix2 e g) = (ix2 e g : S512x1024.Idx) := by
  obtain ⟨-, -, -, -, e0, e1, -⟩ := idx_facts t
  funext a; apply Fin.ext
  match a with
  | ⟨0, _⟩ => show win0_2.index t (0 : Fin 2) * 512 + 1 * e.val = e.val; rw [e0]; omega
  | ⟨1, _⟩ => show win0_2.index t (1 : Fin 2) * 1024 + 1 * g.val = g.val; rw [e1]; omega
theorem emb3 (t : Fin cfg0.N) (f g : Fin 512) :
    ((cfg0.win 3).blk t).view.emb (ix2 f g) = (ix2 f g : S512x512.Idx) := by
  obtain ⟨-, -, -, -, -, -, e0, e1, -⟩ := idx_facts t
  funext a; apply Fin.ext
  match a with
  | ⟨0, _⟩ => show win0_3.index t (0 : Fin 2) * 512 + 1 * f.val = f.val; rw [e0]; omega
  | ⟨1, _⟩ => show win0_3.index t (1 : Fin 2) * 512 + 1 * g.val = g.val; rw [e1]; omega
theorem emb4 (t : Fin cfg0.N) (f g : Fin 512) :
    ((cfg0.win 4).blk t).view.emb (ix2 f g) = (ix2 f g : S512x512.Idx) := by
  obtain ⟨-, -, -, -, -, -, -, -, e0, e1, -⟩ := idx_facts t
  funext a; apply Fin.ext
  match a with
  | ⟨0, _⟩ => show win0_4.index t (0 : Fin 2) * 512 + 1 * f.val = f.val; rw [e0]; omega
  | ⟨1, _⟩ => show win0_4.index t (1 : Fin 2) * 512 + 1 * g.val = g.val; rw [e1]; omega
theorem emb5 (t : Fin cfg0.N) (g : Fin 512) (j : Fin 1536) :
    ((cfg0.win 5).blk t).view.emb (ix2 g j) = (ix2 g j : S512x1536.Idx) := by
  obtain ⟨-, -, -, -, -, -, -, -, -, -, e0, e1, -⟩ := idx_facts t
  funext a; apply Fin.ext
  match a with
  | ⟨0, _⟩ => show win0_5.index t (0 : Fin 2) * 512 + 1 * g.val = g.val; rw [e0]; omega
  | ⟨1, _⟩ => show win0_5.index t (1 : Fin 2) * 1536 + 1 * j.val = j.val; rw [e1]; omega
theorem emb6 (t : Fin cfg0.N) (u : Fin 1) (g : Fin 512) :
    ((cfg0.win 6).blk t).view.emb (ix2 u g) = (ix2 u g : S1x512.Idx) := by
  obtain ⟨-, -, -, -, -, -, -, -, -, -, -, -, e0, e1, -⟩ := idx_facts t
  funext a; apply Fin.ext
  match a with
  | ⟨0, _⟩ => show win0_6.index t (0 : Fin 2) * 1 + 1 * u.val = u.val; rw [e0]; omega
  | ⟨1, _⟩ => show win0_6.index t (1 : Fin 2) * 512 + 1 * g.val = g.val; rw [e1]; omega
theorem emb7 (t : Fin cfg0.N) (u : Fin 1) (j : Fin 1536) :
    ((cfg0.win 7).blk t).view.emb (ix2 u j) = (ix2 u j : S1x1536.Idx) := by
  obtain ⟨-, -, -, -, -, -, -, -, -, -, -, -, -, -, e0, e1, -⟩ := idx_facts t
  funext a; apply Fin.ext
  match a with
  | ⟨0, _⟩ => show win0_7.index t (0 : Fin 2) * 1 + 1 * u.val = u.val; rw [e0]; omega
  | ⟨1, _⟩ => show win0_7.index t (1 : Fin 2) * 1536 + 1 * j.val = j.val; rw [e1]; omega
theorem emb8 (t : Fin cfg0.N) (r : Fin 400) (f : Fin 512) :
    ((cfg0.win 8).blk t).view.emb (ix2 r f) = (ix2 (rowAt t r) f : S50000x512.Idx) := by
  obtain ⟨-, -, -, -, -, -, -, -, -, -, -, -, -, -, -, -, e0, e1, -⟩ := idx_facts t
  funext a; apply Fin.ext
  match a with
  | ⟨0, _⟩ => show win0_8.index t (0 : Fin 2) * 400 + 1 * r.val = t.val * 400 + r.val; rw [e0]; omega
  | ⟨1, _⟩ => show win0_8.index t (1 : Fin 2) * 512 + 1 * f.val = f.val; rw [e1]; omega
theorem emb9 (t : Fin cfg0.N) (r : Fin 400) (k : Fin 1536) :
    ((cfg0.win 9).blk t).view.emb (ix2 r k) = (ix2 (rowAt t r) k : S50000x1536.Idx) := by
  obtain ⟨-, -, -, -, -, -, -, -, -, -, -, -, -, -, -, -, -, -, e0, e1⟩ := idx_facts t
  funext a; apply Fin.ext
  match a with
  | ⟨0, _⟩ => show win0_9.index t (0 : Fin 2) * 400 + 1 * r.val = t.val * 400 + r.val; rw [e0]; omega
  | ⟨1, _⟩ => show win0_9.index t (1 : Fin 2) * 1536 + 1 * k.val = k.val; rw [e1]; omega

/-! ## A block's entries -/

section Blocks
variable (c : Dev nD) (t : Fin cfg0.N)

theorem block0 (r : Fin 400) (f : Fin 512) : iblk m c 0 t (ix2 r f) = m ((c : Thread nD τ).loc main_arg0) (ix3 (rowAt t r) (0 : Fin 1) f) := by
  show V m c main_v0 (((cfg0.win 0).blk t).view.emb (ix2 r f)) = _
  rw [emb0, entry0]
theorem block1 (r : Fin 400) (d : Fin 3) (e : Fin 512) :
    iblk m c 1 t (ix2 r (col3 d e)) = m ((c : Thread nD τ).loc main_arg1) (ix3 (rowAt t r) d e) := by
  show V m c main_v1 (((cfg0.win 1).blk t).view.emb (ix2 r (col3 d e))) = _
  rw [emb1, entry1]
theorem block2 (e : Fin 512) (g : Fin 1024) : iblk m c 2 t (ix2 e g) = m ((c : Thread nD τ).loc main_arg2) (ix2 g e) := by
  show V m c main_v3 (((cfg0.win 2).blk t).view.emb (ix2 e g)) = _
  rw [emb2, entry2]
theorem block3 (f g : Fin 512) : iblk m c 3 t (ix2 f g) = m ((c : Thread nD τ).loc main_arg3) (ix2 g (lo f)) := by
  show V m c main_v6 (((cfg0.win 3).blk t).view.emb (ix2 f g)) = _
  rw [emb3, entry3]
theorem block4 (f g : Fin 512) : iblk m c 4 t (ix2 f g) = m ((c : Thread nD τ).loc main_arg3) (ix2 g (hi f)) := by
  show V m c main_v8 (((cfg0.win 4).blk t).view.emb (ix2 f g)) = _
  rw [emb4, entry4]
theorem block5 (g : Fin 512) (j : Fin 1536) : iblk m c 5 t (ix2 g j) = m ((c : Thread nD τ).loc main_arg5) (ix2 j g) := by
  show V m c main_v10 (((cfg0.win 5).blk t).view.emb (ix2 g j)) = _
  rw [emb5, entry5]
theorem block6 (g : Fin 512) : iblk m c 6 t (ix2 (0 : Fin 1) g) = m ((c : Thread nD τ).loc main_arg4) (ix1 g) := by
  show V m c main_v11 (((cfg0.win 6).blk t).view.emb (ix2 (0 : Fin 1) g)) = _
  rw [emb6, entry6]
theorem block7 (j : Fin 1536) : iblk m c 7 t (ix2 (0 : Fin 1) j) = m ((c : Thread nD τ).loc main_arg6) (ix1 j) := by
  show V m c main_v12 (((cfg0.win 7).blk t).view.emb (ix2 (0 : Fin 1) j)) = _
  rw [emb7, entry7]

end Blocks

end Cert.KernelIdeal.EntryValue

end
-- ==== Proof.RunValue.lean ====
/-
  The kernel's run read as values: what its two results hold, as functions of the seven argument arrays.

  Grid point t writes back, into rows 400·t … 400·t + 399 of the two output arrays, the row formulas of the mixing
  layer evaluated on those rows of q and mu: each row depends on no other row. The 125 blocks tile the 50000 rows, so
  after the last point the scalar array [50000, 512] holds row n's new scalar features in row n and the vector array
  [50000, 1536] holds row n's three new channels side by side. The host then reads them back as [50000, 1, 512] and
  [50000, 3, 512].
-/
import proofs.«148357_j34394098106847_2_alg».proof.Proof.Gen.KernelIdeal.Frame
import proofs.«148357_j34394098106847_2_alg».proof.Proof.Mixing
import proofs.«148357_j34394098106847_2_alg».proof.Proof.BlockValue
import proofs.«148357_j34394098106847_2_alg».proof.Proof.EntryValue
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.RunValue

open Cert.KernelIdeal Cert.KernelIdeal.Gen Idealize.ShloMosaic Idealize.ShloMosaic.ValueIdx Idealize.ShloMosaic.StableHlo
open Idealize.ShloMosaic.TcCoe Idealize.SL.Sem Cert.Mixing Cert.KernelIdeal.EntryValue
open Idealize.ShloMosaic.Pipeline (Dat)

variable (m : (ℓ : Loc nD τ sig) → Buf (Elt Ideal) ℓ) (ρ : Dev nD → PrngReg)

/-! ## The two output arrays of the region -/

/-- The scalar output array: entry (n, j) is row n's new scalar feature j. -/
def scalarArray (c : Dev nD) : S50000x512.Idx → EReal := fun i =>
  rowQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨(i 0).val, (i 0).isLt⟩ ⟨(i 1).val, (i 1).isLt⟩

/-- The vector output array: entry (n, d·512 + j) is entry j of row n's new channel d. -/
def vectorArray (c : Dev nD) : S50000x1536.Idx → EReal := fun i =>
  rowMu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) ⟨(i 0).val, (i 0).isLt⟩
    ⟨(i 1).val / 512, by have h : (i 1).val < 1536 := (i 1).isLt; omega⟩ ⟨(i 1).val % 512, Nat.mod_lt _ (by decide)⟩

theorem scalarArray_ix2 (c : Dev nD) (n : Fin 50000) (j : Fin 512) :
    scalarArray m c (ix2 n j) = rowQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n j := rfl

theorem vectorArray_ix2 (c : Dev nD) (n : Fin 50000) (d : Fin 3) (j : Fin 512) :
    vectorArray m c (ix2 n (col3 d j)) = rowMu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n d j := by
  have hd : (⟨(col3 d j).val / 512, by have := d.isLt; have := j.isLt; show (d.val * 512 + j.val) / 512 < 3; omega⟩ : Fin 3) = d :=
    Fin.ext (by have := j.isLt; show (d.val * 512 + j.val) / 512 = d.val; omega)
  have hj : (⟨(col3 d j).val % 512, Nat.mod_lt _ (by decide)⟩ : Fin 512) = j :=
    Fin.ext (by have := j.isLt; show (d.val * 512 + j.val) % 512 = j.val; omega)
  show rowMu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) n ⟨(col3 d j).val / 512, _⟩ ⟨(col3 d j).val % 512, _⟩ = _
  rw [hd, hj]

/-! ## What a grid point writes back -/

theorem written8 (c : Dev nD) (t : Fin cfg0.N) (y : S400x512.Idx) :
    out0_8 (iblk m c 0 t) (iblk m c 1 t) (iblk m c 2 t) (iblk m c 3 t) (iblk m c 4 t) (iblk m c 5 t) (iblk m c 6 t) (iblk m c 7 t) y = scalarArray m c (((cfg0.win 8).blk t).view.emb y) := by
  obtain ⟨r, j, rfl⟩ : ∃ (r : Fin 400) (j : Fin 512), y = ix2 r j := ⟨y 0, y 1, eq_ix2 y⟩
  rw [emb8, scalarArray_ix2]
  refine (BlockValue.block8_apply (iblk m c 0 t) (iblk m c 1 t) (iblk m c 2 t) (iblk m c 3 t) (iblk m c 4 t) (iblk m c 5 t) (iblk m c 6 t) (iblk m c 7 t) r j).trans ?_
  have h0 : (fun f => iblk m c 0 t (ix2 r f)) = fun f => (m ((c : Thread nD τ).loc main_arg0)) (ix3 (rowAt t r) (0 : Fin 1) f) := funext fun f => block0 m c t r f
  have h1 : (fun d e => iblk m c 1 t (ix2 r (col3 d e))) = fun d e => (m ((c : Thread nD τ).loc main_arg1)) (ix3 (rowAt t r) d e) := funext fun d => funext fun e => block1 m c t r d e
  have h2 : (fun g e => iblk m c 2 t (ix2 e g)) = fun (g : Fin 1024) (e : Fin 512) => (m ((c : Thread nD τ).loc main_arg2)) (ix2 g e) := funext fun g => funext fun e => block2 m c t e g
  have h3 : (fun g f => iblk m c 3 t (ix2 f g)) = fun (g f : Fin 512) => (m ((c : Thread nD τ).loc main_arg3)) (ix2 g (lo f)) := funext fun g => funext fun f => block3 m c t f g
  have h4 : (fun g f => iblk m c 4 t (ix2 f g)) = fun (g f : Fin 512) => (m ((c : Thread nD τ).loc main_arg3)) (ix2 g (hi f)) := funext fun g => funext fun f => block4 m c t f g
  have h5 : (fun j g => iblk m c 5 t (ix2 g j)) = fun (j : Fin 1536) (g : Fin 512) => (m ((c : Thread nD τ).loc main_arg5)) (ix2 j g) := funext fun j => funext fun g => block5 m c t g j
  have h6 : (fun g => iblk m c 6 t (ix2 (0 : Fin 1) g)) = fun (g : Fin 512) => (m ((c : Thread nD τ).loc main_arg4)) (ix1 g) := funext fun g => block6 m c t g
  have h7 : (fun j => iblk m c 7 t (ix2 (0 : Fin 1) j)) = fun (j : Fin 1536) => (m ((c : Thread nD τ).loc main_arg6)) (ix1 j) := funext fun j => block7 m c t j
  rw [h0, h1, h2, h3, h4, h5, h6, h7]
  rfl

theorem written9 (c : Dev nD) (t : Fin cfg0.N) (y : S400x1536.Idx) :
    out0_9 (iblk m c 0 t) (iblk m c 1 t) (iblk m c 2 t) (iblk m c 3 t) (iblk m c 4 t) (iblk m c 5 t) (iblk m c 6 t) (iblk m c 7 t) y = vectorArray m c (((cfg0.win 9).blk t).view.emb y) := by
  obtain ⟨r, k, rfl⟩ : ∃ (r : Fin 400) (k : Fin 1536), y = ix2 r k := ⟨y 0, y 1, eq_ix2 y⟩
  obtain ⟨d, j, rfl⟩ : ∃ (d : Fin 3) (j : Fin 512), k = col3 d j :=
    ⟨⟨k.val / 512, by have := k.isLt; omega⟩, ⟨k.val % 512, Nat.mod_lt _ (by decide)⟩, Fin.ext (by show k.val = k.val / 512 * 512 + k.val % 512; omega)⟩
  rw [emb9, vectorArray_ix2]
  refine (BlockValue.block9_apply (iblk m c 0 t) (iblk m c 1 t) (iblk m c 2 t) (iblk m c 3 t) (iblk m c 4 t) (iblk m c 5 t) (iblk m c 6 t) (iblk m c 7 t) d r j).trans ?_
  have h0 : (fun f => iblk m c 0 t (ix2 r f)) = fun f => (m ((c : Thread nD τ).loc main_arg0)) (ix3 (rowAt t r) (0 : Fin 1) f) := funext fun f => block0 m c t r f
  have h1 : (fun d e => iblk m c 1 t (ix2 r (col3 d e))) = fun d e => (m ((c : Thread nD τ).loc main_arg1)) (ix3 (rowAt t r) d e) := funext fun d => funext fun e => block1 m c t r d e
  have h2 : (fun g e => iblk m c 2 t (ix2 e g)) = fun (g : Fin 1024) (e : Fin 512) => (m ((c : Thread nD τ).loc main_arg2)) (ix2 g e) := funext fun g => funext fun e => block2 m c t e g
  have h3 : (fun g f => iblk m c 3 t (ix2 f g)) = fun (g f : Fin 512) => (m ((c : Thread nD τ).loc main_arg3)) (ix2 g (lo f)) := funext fun g => funext fun f => block3 m c t f g
  have h4 : (fun g f => iblk m c 4 t (ix2 f g)) = fun (g f : Fin 512) => (m ((c : Thread nD τ).loc main_arg3)) (ix2 g (hi f)) := funext fun g => funext fun f => block4 m c t f g
  have h5 : (fun j g => iblk m c 5 t (ix2 g j)) = fun (j : Fin 1536) (g : Fin 512) => (m ((c : Thread nD τ).loc main_arg5)) (ix2 j g) := funext fun j => funext fun g => block5 m c t g j
  have h6 : (fun g => iblk m c 6 t (ix2 (0 : Fin 1) g)) = fun (g : Fin 512) => (m ((c : Thread nD τ).loc main_arg4)) (ix1 g) := funext fun g => block6 m c t g
  have h7 : (fun j => iblk m c 7 t (ix2 (0 : Fin 1) j)) = fun (j : Fin 1536) => (m ((c : Thread nD τ).loc main_arg6)) (ix1 j) := funext fun j => block7 m c t j
  rw [h0, h1, h2, h3, h4, h5, h6, h7]
  rfl

/-- What point t writes back to the scalar array is block t of the scalar array's final contents. -/
theorem flushed8_eq (c : Dev nD) (t : Fin cfg0.N) :
    (dats m 0 c).flushed 8 t = ((cfg0.win 8).blk t).view.read (Elt Ideal) (scalarArray m c) := by
  show (cfg0.win 8).cut (grid0.coords t) ((dats m 0 c).after 8 t) = _
  rw [after0_8]
  exact funext (written8 m c t)

/-- What point t writes back to the vector array is block t of the vector array's final contents. -/
theorem flushed9_eq (c : Dev nD) (t : Fin cfg0.N) :
    (dats m 0 c).flushed 9 t = ((cfg0.win 9).blk t).view.read (Elt Ideal) (vectorArray m c) := by
  show (cfg0.win 9).cut (grid0.coords t) ((dats m 0 c).after 9 t) = _
  rw [after0_9]
  exact funext (written9 m c t)

/-! ## The blocks tile the arrays -/

/-- An index of the scalar array is in point t's block iff each coordinate is in the block's range on its axis. -/
theorem mem_blk8 (t : Fin cfg0.N) (i : S50000x512.Idx) :
    i ∈ ((cfg0.win 8).blk t).view.set ↔ ∀ a : Fin 2, win0_8.index t a * S400x512.size a ≤ (i a).val ∧ (i a).val < win0_8.index t a * S400x512.size a + S400x512.size a := by
  show i ∈ ((View.whole main_v13_0).slice (win0_8.rect t)).set ↔ _
  rw [View.set_slice_whole, Rect.mem_set_unit]
  exact Iff.rfl
theorem mem_blk9 (t : Fin cfg0.N) (i : S50000x1536.Idx) :
    i ∈ ((cfg0.win 9).blk t).view.set ↔ ∀ a : Fin 2, win0_9.index t a * S400x1536.size a ≤ (i a).val ∧ (i a).val < win0_9.index t a * S400x1536.size a + S400x1536.size a := by
  show i ∈ ((View.whole main_v13_1).slice (win0_9.rect t)).set ↔ _
  rw [View.set_slice_whole, Rect.mem_set_unit]
  exact Iff.rfl

/-- Row n is in the block of point n / 400. -/
theorem cover8 (i : S50000x512.Idx) : ∃ t : Fin cfg0.N, (cfg0.win 8).flush t = true ∧ i ∈ ((cfg0.win 8).blk t).view.set := by
  have hi0 : (i 0).val < 50000 := (i 0).isLt
  have hi1 : (i 1).val < 512 := (i 1).isLt
  have hN : (i 0).val / 400 < cfg0.N := by show _ < grid0.N; rw [N_0]; omega
  refine ⟨⟨(i 0).val / 400, hN⟩, flush0_8 _, ?_⟩
  rw [mem_blk8]
  obtain ⟨-, -, -, -, -, -, -, -, -, -, -, -, -, -, -, -, e0, e1, -⟩ := idx_facts ⟨(i 0).val / 400, hN⟩
  intro a
  match a with
  | ⟨0, _⟩ =>
    show win0_8.index ⟨(i 0).val / 400, hN⟩ (0 : Fin 2) * 400 ≤ (i 0).val ∧ (i 0).val < win0_8.index ⟨(i 0).val / 400, hN⟩ (0 : Fin 2) * 400 + 400
    rw [e0]; show (i 0).val / 400 * 400 ≤ (i 0).val ∧ (i 0).val < (i 0).val / 400 * 400 + 400; omega
  | ⟨1, _⟩ =>
    show win0_8.index ⟨(i 0).val / 400, hN⟩ (1 : Fin 2) * 512 ≤ (i 1).val ∧ (i 1).val < win0_8.index ⟨(i 0).val / 400, hN⟩ (1 : Fin 2) * 512 + 512
    rw [e1]; omega
theorem cover9 (i : S50000x1536.Idx) : ∃ t : Fin cfg0.N, (cfg0.win 9).flush t = true ∧ i ∈ ((cfg0.win 9).blk t).view.set := by
  have hi0 : (i 0).val < 50000 := (i 0).isLt
  have hi1 : (i 1).val < 1536 := (i 1).isLt
  have hN : (i 0).val / 400 < cfg0.N := by show _ < grid0.N; rw [N_0]; omega
  refine ⟨⟨(i 0).val / 400, hN⟩, flush0_9 _, ?_⟩
  rw [mem_blk9]
  obtain ⟨-, -, -, -, -, -, -, -, -, -, -, -, -, -, -, -, -, -, e0, e1⟩ := idx_facts ⟨(i 0).val / 400, hN⟩
  intro a
  match a with
  | ⟨0, _⟩ =>
    show win0_9.index ⟨(i 0).val / 400, hN⟩ (0 : Fin 2) * 400 ≤ (i 0).val ∧ (i 0).val < win0_9.index ⟨(i 0).val / 400, hN⟩ (0 : Fin 2) * 400 + 400
    rw [e0]; show (i 0).val / 400 * 400 ≤ (i 0).val ∧ (i 0).val < (i 0).val / 400 * 400 + 400; omega
  | ⟨1, _⟩ =>
    show win0_9.index ⟨(i 0).val / 400, hN⟩ (1 : Fin 2) * 1536 ≤ (i 1).val ∧ (i 1).val < win0_9.index ⟨(i 0).val / 400, hN⟩ (1 : Fin 2) * 1536 + 1536
    rw [e1]; omega

/-- After the last grid point the scalar array holds every row's new scalar features … -/
theorem final8 (c : Dev nD) : (dats m 0 c).arrAt 8 cfg0.N = scalarArray m c :=
  (dats m 0 c).arrAt_eq_of_cover 8 (scalarArray m c) (fun t _ => flushed8_eq m c t) cover8
/-- … and the vector array every row's new vector channels. -/
theorem final9 (c : Dev nD) : (dats m 0 c).arrAt 9 cfg0.N = vectorArray m c :=
  (dats m 0 c).arrAt_eq_of_cover 9 (vectorArray m c) (fun t _ => flushed9_eq m c t) cover9

/-! ## The two results, read back with their Cartesian axis -/

theorem result0 (c : Dev nD) :
    Pipeline.afterTail₀ cfgs (dats m) 0 (V0 m) [hostOps1] c main_v14 = outQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v14) = _
  after_results
  have hw := (Pipeline.withArrays_arr spec0 launch0.win.arr_inj c (V0 m c) (fun w => (dats m 0 c).arrAt w cfg0.N) 8).trans (final8 m c)
  funext i
  obtain ⟨n, u, j, rfl⟩ : ∃ (n : Fin 50000) (u : Fin 1) (j : Fin 512), i = ix3 n u j := ⟨i 0, i 1, i 2, eq_ix3 i⟩
  rw [outQ_ix3]
  refine (shapeCast_apply _ shapeCasts_S50000x512_S50000x1x512 (ix3 n u j) (ix2 n j) (by
    rw [Shape.rowMajor_val_three, Shape.rowMajor_val_two]
    show n.val * 512 + j.val = (n.val * 1 + u.val) * 512 + j.val
    have := u.isLt; omega)).trans ?_
  exact (congrFun hw (ix2 n j)).trans (scalarArray_ix2 m c n j)

theorem result1 (c : Dev nD) :
    Pipeline.afterTail₀ cfgs (dats m) 0 (V0 m) [hostOps1] c main_v15 = outMu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  unfold Pipeline.afterTail₀
  show StableHlo.after hostOps1 _ (Proc.devRef .tc main_v15) = _
  after_results
  have hw := (Pipeline.withArrays_arr spec0 launch0.win.arr_inj c (V0 m c) (fun w => (dats m 0 c).arrAt w cfg0.N) 9).trans (final9 m c)
  funext i
  obtain ⟨n, d, j, rfl⟩ : ∃ (n : Fin 50000) (d : Fin 3) (j : Fin 512), i = ix3 n d j := ⟨i 0, i 1, i 2, eq_ix3 i⟩
  rw [outMu_ix3]
  refine (shapeCast_apply _ shapeCasts_S50000x1536_S50000x3x512 (ix3 n d j) (ix2 n (col3 d j)) (by
    rw [Shape.rowMajor_val_three, Shape.rowMajor_val_two]
    show n.val * 1536 + (d.val * 512 + j.val) = (n.val * 3 + d.val) * 512 + j.val
    omega)).trans ?_
  exact (congrFun hw (ix2 n (col3 d j))).trans (vectorArray_ix2 m c n d j)

/-! ## The run -/

/-- Every weakly fair execution of the kernel's program terminates with its two results at the row formulas of the
    argument arrays, and the arguments unchanged. -/
theorem run : θ_run defs (onTc (τ := τ) (main (F := Ideal))) ⟨m, fun _ => 0, ρ⟩ fun r => ∀ c : Dev nD,
      r.2.mem ((c.tc : Thread nD τ).loc main_v14) = outQ (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_v15) = outMu (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨
      ((h c).2 main_v14 (Pipeline.mem_restRefs_of main_v14 (by decide) (by decide))).trans (result0 m c),
      ((h c).2 main_v15 (Pipeline.mem_restRefs_of main_v15 (by decide) (by decide))).trans (result1 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c)⟩)
    (run_main m ρ)

end Cert.KernelIdeal.RunValue

end
-- ==== Proof.RefValue.lean ====
/-
  The reference computes the same row formulas.

  The reference contracts mu with the mixing weight over the feature axis (a sum over 512), cuts the result into its V
  and W halves, sums V·V over the three channels starting from zero, adds the small constant and takes the root; it
  joins q and that norm along the feature axis into a context of 1024 entries and contracts it with W1 (a sum over
  1024, which is the sum over the q half plus the sum over the norm half); its activation is x · (1 / (1 + exp (-x))),
  the logistic function written out; the output layer and the two updates follow the row formulas term by term.
-/
import proofs.«148357_j34394098106847_2_alg».proof.Proof.Gen.ReferenceIdeal.Read
import proofs.«148357_j34394098106847_2_alg».proof.Proof.Mixing
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx Cert.Mixing

variable (x0 : S50000x1x512.Idx → EReal) (x1 : S50000x3x512.Idx → EReal) (x2 : S1024x512.Idx → EReal)
  (x3 : S512x1024.Idx → EReal) (x4 : S512.Idx → EReal) (x5 : S1536x512.Idx → EReal) (x6 : S1536.Idx → EReal)

/-- The contraction of mu with the mixing weight, at (n, d, g). -/
theorem mixed_apply (n : Fin 50000) (d : Fin 3) (g : Fin 1024) :
    val_main_v0 (F := Ideal) x1 x2 (ix3 n d g) = mix (fun d f => x1 (ix3 n d f)) (fun g f => x2 (ix2 g f)) d g := by
  rw [val_main_v0_apply]
  unfold mix
  refine Finset.sum_congr rfl fun f _ => ?_
  have el : lidx_main_v0 (ix3 n d g) f = ix3 n d f := funext (fun a => by match a with | ⟨0, _⟩ => rfl | ⟨1, _⟩ => rfl | ⟨2, _⟩ => rfl)
  have er : ridx_main_v0 (ix3 n d g) f = ix2 g f := funext (fun a => by match a with | ⟨0, _⟩ => rfl | ⟨1, _⟩ => rfl)
  rw [el, er]

/-- Its V half and its W half. -/
theorem vhalf_apply (n : Fin 50000) (d : Fin 3) (j : Fin 512) :
    val_main_v1 (F := Ideal) x1 x2 (ix3 n d j) = mix (fun d f => x1 (ix3 n d f)) (fun g f => x2 (ix2 g f)) d (lo j) := by
  have e : idx_main_v1 (ix3 n d j) = ix3 n d (lo j) := funext (fun a => by match a with | ⟨0, _⟩ => rfl | ⟨1, _⟩ => rfl | ⟨2, _⟩ => rfl)
  rw [val_main_v1_apply, e, mixed_apply]
theorem whalf_apply (n : Fin 50000) (d : Fin 3) (j : Fin 512) :
    val_main_v2 (F := Ideal) x1 x2 (ix3 n d j) = mix (fun d f => x1 (ix3 n d f)) (fun g f => x2 (ix2 g f)) d (hi j) := by
  have e : idx_main_v2 (ix3 n d j) = ix3 n d (hi j) := funext (fun a => by match a with | ⟨0, _⟩ => rfl | ⟨1, _⟩ => rfl | ⟨2, _⟩ => rfl)
  rw [val_main_v2_apply, e, mixed_apply]

/-- The norm over the channels, at (n, 0, f). -/
theorem norm_apply (n : Fin 50000) (u : Fin 1) (f : Fin 512) :
    val_main_v8 (F := Ideal) x1 x2 (ix3 n u f) = vnorm (fun d f => x1 (ix3 n d f)) (fun g f => x2 (ix2 g f)) f := by
  have e : ∀ d : Fin 3, idx_main_v4 (idx_main_v5 (ix3 n u f)) d = ix3 n d f := fun d => funext (fun a => by match a with | ⟨0, _⟩ => rfl | ⟨1, _⟩ => rfl | ⟨2, _⟩ => rfl)
  rw [val_main_v8_apply, val_main_v7_apply, val_main_v5_apply, val_main_v4_apply, val_main_cst_apply, val_main_v6_apply,
    val_main_cst_0_apply]
  simp only [e, val_main_v3_apply, vhalf_apply, Ideal.ofBits_def, Ideal.mulf_def, Ideal.addf_def, Ideal.hostUnary_sqrt_def]
  rw [zero_add_sum_three]
  rfl

/-- The context: q in its first 512 entries, the norm in its last 512. -/
theorem ctx_lo (n : Fin 50000) (u : Fin 1) (f : Fin 512) :
    val_main_v9 (F := Ideal) x0 x1 x2 (ix3 n u (lo f)) = x0 (ix3 n u f) := by
  unfold val_main_v9
  exact concatenate_pair_apply_left (t := S50000x1x1024) (2 : Fin 3) x0 (val_main_v8 (F := Ideal) x1 x2)
    concatenates_S50000x1x512_S50000x1x512_S50000x1x1024_d2 (ix3 n u (lo f)) rfl (ix3 n u f) (fun a => by match a with | ⟨0, _⟩ => rfl | ⟨1, _⟩ => rfl | ⟨2, _⟩ => rfl)
theorem ctx_hi (n : Fin 50000) (u : Fin 1) (f : Fin 512) :
    val_main_v9 (F := Ideal) x0 x1 x2 (ix3 n u (hi f)) = val_main_v8 (F := Ideal) x1 x2 (ix3 n u f) := by
  unfold val_main_v9
  exact concatenate_pair_apply_right (t := S50000x1x1024) (2 : Fin 3) x0 (val_main_v8 (F := Ideal) x1 x2)
    concatenates_S50000x1x512_S50000x1x512_S50000x1x1024_d2 (ix3 n u (hi f)) rfl rfl (ix3 n u f)
    (fun b hb => by match b with | ⟨0, _⟩ => rfl | ⟨1, _⟩ => rfl | ⟨2, _⟩ => exact absurd rfl hb)
    (by show f.val + 512 = 512 + f.val; omega)

/-- The hidden layer before its activation, at (n, 0, g). -/
theorem hidden_apply (n : Fin 50000) (g : Fin 512) :
    val_main_v13 (F := Ideal) x0 x1 x2 x3 x4 (ix3 n (0 : Fin 1) g)
      = hpre (fun f => x0 (ix3 n (0 : Fin 1) f)) (fun d f => x1 (ix3 n d f)) (fun g f => x2 (ix2 g f))
      (fun g f => x3 (ix2 g (lo f))) (fun g f => x3 (ix2 g (hi f))) (fun g => x4 (ix1 g)) g := by
  have el : ∀ k : Fin 1024, lidx_main_v10 (ix3 n (0 : Fin 1) g) k = ix3 n (0 : Fin 1) k := fun k => funext (fun a => by match a with | ⟨0, _⟩ => rfl | ⟨1, _⟩ => rfl | ⟨2, _⟩ => rfl)
  have er : ∀ k : Fin 1024, ridx_main_v10 (ix3 n (0 : Fin 1) g) k = ix2 g k := fun k => funext (fun a => by match a with | ⟨0, _⟩ => rfl | ⟨1, _⟩ => rfl)
  have eb : idx_main_v11 (idx_main_v12 (ix3 n (0 : Fin 1) g)) = ix1 g := funext (fun a => by match a with | ⟨0, _⟩ => rfl)
  rw [val_main_v13_apply, val_main_v10_apply, val_main_v12_apply, val_main_v11_apply, sum_halves]
  simp only [el, er, eb, ctx_lo, ctx_hi, norm_apply]
  rfl

/-- The hidden layer, at (n, 0, g): the logistic function written out. -/
theorem act_apply (n : Fin 50000) (g : Fin 512) :
    val_main_v14 (F := Ideal) x0 x1 x2 x3 x4 (ix3 n (0 : Fin 1) g)
      = hact (fun f => x0 (ix3 n (0 : Fin 1) f)) (fun d f => x1 (ix3 n d f)) (fun g f => x2 (ix2 g f))
      (fun g f => x3 (ix2 g (lo f))) (fun g f => x3 (ix2 g (hi f))) (fun g => x4 (ix1 g)) g := by
  rw [val_main_v14_apply, val_main_call0_v5_apply, val_main_call0_v4_apply, val_main_call0_cst_0_apply,
    val_main_call0_v3_apply, val_main_call0_v2_apply, val_main_call0_cst_apply, val_main_call0_v1_apply,
    val_main_call0_v0_apply, hidden_apply]
  unfold hact
  exact congrArg (fun z : EReal => hpre (fun f => x0 (ix3 n (0 : Fin 1) f)) (fun d f => x1 (ix3 n d f)) (fun g f => x2 (ix2 g f))
      (fun g f => x3 (ix2 g (lo f))) (fun g f => x3 (ix2 g (hi f))) (fun g => x4 (ix1 g)) g * z) (logistic_spelt _)

/-- The output layer, at (n, 0, j). -/
theorem out_apply (n : Fin 50000) (j : Fin 1536) :
    val_main_v18 (F := Ideal) x0 x1 x2 x3 x4 x5 x6 (ix3 n (0 : Fin 1) j)
      = xout (fun f => x0 (ix3 n (0 : Fin 1) f)) (fun d f => x1 (ix3 n d f)) (fun g f => x2 (ix2 g f))
      (fun g f => x3 (ix2 g (lo f))) (fun g f => x3 (ix2 g (hi f))) (fun g => x4 (ix1 g))
      (fun j g => x5 (ix2 j g)) (fun j => x6 (ix1 j)) j := by
  have el : ∀ g : Fin 512, lidx_main_v15 (ix3 n (0 : Fin 1) j) g = ix3 n (0 : Fin 1) g := fun g => funext (fun a => by match a with | ⟨0, _⟩ => rfl | ⟨1, _⟩ => rfl | ⟨2, _⟩ => rfl)
  have er : ∀ g : Fin 512, ridx_main_v15 (ix3 n (0 : Fin 1) j) g = ix2 j g := fun g => funext (fun a => by match a with | ⟨0, _⟩ => rfl | ⟨1, _⟩ => rfl)
  have eb : idx_main_v16 (idx_main_v17 (ix3 n (0 : Fin 1) j)) = ix1 j := funext (fun a => by match a with | ⟨0, _⟩ => rfl)
  rw [val_main_v18_apply, val_main_v15_apply, val_main_v17_apply, val_main_v16_apply]
  simp only [el, er, eb, act_apply]
  rfl

/-- The sum over the channels of V · W, at (n, 0, j). -/
theorem vw_apply (n : Fin 50000) (u : Fin 1) (j : Fin 512) :
    val_main_v26 (F := Ideal) x1 x2 (ix3 n u j) = vw (fun d f => x1 (ix3 n d f)) (fun g f => x2 (ix2 g f)) j := by
  have e : ∀ d : Fin 3, idx_main_v25 (idx_main_v26 (ix3 n u j)) d = ix3 n d j := fun d => funext (fun a => by match a with | ⟨0, _⟩ => rfl | ⟨1, _⟩ => rfl | ⟨2, _⟩ => rfl)
  rw [val_main_v26_apply, val_main_v25_apply, val_main_cst_1_apply]
  simp only [e, val_main_v24_apply, vhalf_apply, whalf_apply, Ideal.ofBits_def, Ideal.mulf_def]
  rw [zero_add_sum_three]
  rfl

/-- The reference's first result is the scalar update of every row. -/
theorem first_result : val_main_v29 (F := Ideal) x0 x1 x2 x3 x4 x5 x6 = outQ x0 x1 x2 x3 x4 x5 x6 := by
  funext i
  obtain ⟨n, u, j, rfl⟩ : ∃ (n : Fin 50000) (u : Fin 1) (j : Fin 512), i = ix3 n u j := ⟨i 0, i 1, i 2, eq_ix3 i⟩
  obtain rfl : u = 0 := Subsingleton.elim u 0
  have e19 : idx_main_v19 (ix3 n (0 : Fin 1) j) = ix3 n (0 : Fin 1) (col3 0 j) := funext (fun a => by
    match a with
    | ⟨0, _⟩ => rfl
    | ⟨1, _⟩ => rfl
    | ⟨2, _⟩ => exact Fin.ext (by show j.val = 0 * 512 + j.val; omega))
  have e23 : idx_main_v23 (ix3 n (0 : Fin 1) j) = ix3 n (0 : Fin 1) (col3 2 j) := funext (fun a => by
    match a with
    | ⟨0, _⟩ => rfl
    | ⟨1, _⟩ => rfl
    | ⟨2, _⟩ => exact Fin.ext (by show 1024 + j.val = 2 * 512 + j.val; omega))
  rw [outQ_ix3, val_main_v29_apply, val_main_v28_apply, val_main_v27_apply, val_main_v19_apply, val_main_v23_apply,
    vw_apply, e19, e23, out_apply, out_apply]
  rfl

/-- The reference's second result is the vector update of every row. -/
theorem second_result : val_main_v30 (F := Ideal) x0 x1 x2 x3 x4 x5 x6 = outMu x0 x1 x2 x3 x4 x5 x6 := by
  funext i
  obtain ⟨n, d, j, rfl⟩ : ∃ (n : Fin 50000) (d : Fin 3) (j : Fin 512), i = ix3 n d j := ⟨i 0, i 1, i 2, eq_ix3 i⟩
  have e : idx_main_v20 (idx_main_v21 (ix3 n d j)) = ix3 n (0 : Fin 1) (col3 1 j) := funext (fun a => by
    match a with
    | ⟨0, _⟩ => rfl
    | ⟨1, _⟩ => rfl
    | ⟨2, _⟩ => exact Fin.ext (by show 512 + j.val = 1 * 512 + j.val; omega))
  rw [outMu_ix3, val_main_v30_apply, val_main_v22_apply, val_main_v21_apply, val_main_v20_apply, whalf_apply, e, out_apply]
  rfl

end Cert.ReferenceIdeal.RefValue

end
-- ==== Proof.lean ====
/-
  A mixing layer for equivariant features, fused into one kernel, against its reference, over the extended reals.

  Per row the layer mixes three Cartesian vector channels mu_0, mu_1, mu_2 by one weight (V and W halves), takes the
  norm of the V half over the channels, feeds the scalar features q and that norm through a two-layer network with a
  sigmoid-weighted hidden layer, and updates q by the first third of the network's output plus its last third times
  the channel sum of V · W, and each mu_d by the middle third times W_d (Proof/Mixing.lean has the formulas).

  The kernel works on blocks of 400 rows: it stacks the three channels of a block into one 1200-row matrix so that the
  mixing weight meets them in a single product, splits the first layer's weight into the half that meets q and the
  half that meets the norm (two products added), and applies the logistic function as one operation. The reference
  contracts each channel separately, joins q and the norm into one context of 1024 entries and contracts it once, sums
  over the channels starting from zero, and spells the logistic function 1 / (1 + exp (-x)). Over the extended reals a
  change of float format is the identity and these are the same sums of the same products: a sum over 1024 entries is
  the sum over its two halves, a sum started at zero is the sum, and the logistic function is its spelling. None of
  these laws needs a finite entry, so the precondition is never opened.

  The kernel's result arrays are read off its run block by block (Proof/BlockValue.lean: a block's entries;
  Proof/EntryValue.lean: what the region finds in each window; Proof/RunValue.lean: the blocks tile the arrays, and the
  host's reshapes before and after the region), the reference's off its run operation by operation
  (Proof/RefValue.lean). The idealized kernel is the kernel's own text read over the extended reals, so there is
  nothing to preserve; the three frames are the generated ones.
-/
import proofs.«148357_j34394098106847_2_alg».proof.Defs
import proofs.«148357_j34394098106847_2_alg».proof.Proof.Gen.Kernel
import proofs.«148357_j34394098106847_2_alg».proof.Proof.Gen.Kernel.Skeleton
import proofs.«148357_j34394098106847_2_alg».proof.Proof.Gen.Kernel.Launch
import proofs.«148357_j34394098106847_2_alg».proof.Proof.Gen.Kernel.Points
import proofs.«148357_j34394098106847_2_alg».proof.Proof.Gen.Kernel.Frame
import proofs.«148357_j34394098106847_2_alg».proof.Proof.Gen.KernelIdeal
import proofs.«148357_j34394098106847_2_alg».proof.Proof.Gen.KernelIdeal.Skeleton
import proofs.«148357_j34394098106847_2_alg».proof.Proof.Gen.KernelIdeal.Launch
import proofs.«148357_j34394098106847_2_alg».proof.Proof.Gen.KernelIdeal.Points
import proofs.«148357_j34394098106847_2_alg».proof.Proof.Gen.KernelIdeal.Frame
import proofs.«148357_j34394098106847_2_alg».proof.Proof.Gen.ReferenceIdeal
import proofs.«148357_j34394098106847_2_alg».proof.Proof.Gen.Pre_finite_inputs
import proofs.«148357_j34394098106847_2_alg».proof.Proof.Gen.ReferenceIdeal.Run
import proofs.«148357_j34394098106847_2_alg».proof.Proof.Gen.ReferenceIdeal.Read
import proofs.«148357_j34394098106847_2_alg».proof.Proof.Mixing
import proofs.«148357_j34394098106847_2_alg».proof.Proof.RunValue
import proofs.«148357_j34394098106847_2_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of host operations: its run, with the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the row formulas of the mixing layer at every row of the argument arrays. -/
theorem algebraic : Cert.algebraic_KernelIdeal_ReferenceIdeal := by
  intro m ρ m' ρ' _ hagree
  refine ⟨fun c => Cert.Mixing.outQ (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    fun c => Cert.Mixing.outMu (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.RunValue.run m ρ, ?_⟩
  refine (θ_run Cert.ReferenceIdeal.defs _ _).mono (fun _ h c => ⟨?_, ?_, (h c).2.2⟩)
    (Cert.ReferenceIdeal.Value.run (F := Ideal) m' ρ')
  · obtain ⟨h0, h1, h2, h3, h4, h5, h6⟩ := hagree c
    refine ((h c).1.trans (Cert.ReferenceIdeal.Read.val_main_v29_eq m' c)).trans ?_
    rw [Cert.ReferenceIdeal.RefValue.first_result, h0, h1, h2, h3, h4, h5, h6]
  · obtain ⟨h0, h1, h2, h3, h4, h5, h6⟩ := hagree c
    refine ((h c).2.1.trans (Cert.ReferenceIdeal.Read.val_main_v30_eq (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)))).trans ?_
    rw [Cert.ReferenceIdeal.RefValue.second_result, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
